-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x3 : Shape := ⟨2, ![1048576, 3]⟩
abbrev S1048576x4 : Shape := ⟨2, ![1048576, 4]⟩
abbrev S1048576x7 : Shape := ⟨2, ![1048576, 7]⟩
abbrev S_ : Shape := ⟨0, ![]⟩

class Facts : Prop where
  bcast_S_S1048576x3 : S_.BroadcastsInDim S1048576x3 (![] : Fin 0 → Fin S1048576x3.rank)
  reducesTo_S1048576x3_S_d0_1 : S1048576x3.ReducesTo [0, 1] S_
  h_S_ : 0 < S_.numel
  bcast_S_S1048576x4 : S_.BroadcastsInDim S1048576x4 (![] : Fin 0 → Fin S1048576x4.rank)
  reducesTo_S1048576x4_S_d0_1 : S1048576x4.ReducesTo [0, 1] S_
  bcast_S_S1048576x7 : S_.BroadcastsInDim S1048576x7 (![] : Fin 0 → Fin S1048576x7.rank)
  reducesTo_S1048576x7_S_d0_1 : S1048576x7.ReducesTo [0, 1] S_

variable [Facts]

def fn_part1 {F : FTy → Type} [FloatOps F] (main_arg4 : FVec F S1048576x3 .f32) (main_arg5 : FVec F S1048576x4 .f32) (main_arg6 : FVec F S1048576x7 .f32) (main_v13 : IVec S_ 1) (main_v16 : IVec S1048576x4 1) : IVec S_ 1 :=
  let main_c_5 : IVec S_ 1 := constantI S_ 1 1#1
  let main_v17 : IVec S_ 1 := (fun x v => Host.reduce IntOp.andi x v reducesTo_S1048576x4_S_d0_1 h_S_) main_v16 main_c_5
  let main_v18 : IVec S_ 1 := andi main_v13 main_v17
  let main_v19 : FVec F S1048576x3 .f32 := Host.absf main_arg4
  let main_cst_6 : FVec F S_ .f32 := constant S_ .f32 0x7F800000#32
  let main_v20 : FVec F S1048576x3 .f32 := broadcastInDim S1048576x3 ![] bcast_S_S1048576x3 main_cst_6
  let main_v21 : IVec S1048576x3 1 := cmpf .olt main_v19 main_v20
  let main_c_7 : IVec S_ 1 := constantI S_ 1 1#1
  let main_v22 : IVec S_ 1 := (fun x v => Host.reduce IntOp.andi x v reducesTo_S1048576x3_S_d0_1 h_S_) main_v21 main_c_7
  let main_v23 : IVec S_ 1 := andi main_v18 main_v22
  let main_v24 : FVec F S1048576x4 .f32 := Host.absf main_arg5
  let main_cst_8 : FVec F S_ .f32 := constant S_ .f32 0x7F800000#32
  let main_v25 : FVec F S1048576x4 .f32 := broadcastInDim S1048576x4 ![] bcast_S_S1048576x4 main_cst_8
  let main_v26 : IVec S1048576x4 1 := cmpf .olt main_v24 main_v25
  let main_c_9 : IVec S_ 1 := constantI S_ 1 1#1
  let main_v27 : IVec S_ 1 := (fun x v => Host.reduce IntOp.andi x v reducesTo_S1048576x4_S_d0_1 h_S_) main_v26 main_c_9
  let main_v28 : IVec S_ 1 := andi main_v23 main_v27
  let main_v29 : FVec F S1048576x7 .f32 := Host.absf main_arg6
  let main_cst_10 : FVec F S_ .f32 := constant S_ .f32 0x7F800000#32
  let main_v30 : FVec F S1048576x7 .f32 := broadcastInDim S1048576x7 ![] bcast_S_S1048576x7 main_cst_10
  let main_v31 : IVec S1048576x7 1 := cmpf .olt main_v29 main_v30
  let main_c_11 : IVec S_ 1 := constantI S_ 1 1#1
  let main_v32 : IVec S_ 1 := (fun x v => Host.reduce IntOp.andi x v reducesTo_S1048576x7_S_d0_1 h_S_) main_v31 main_c_11
  let main_v33 : IVec S_ 1 := andi main_v28 main_v32
  main_v33

def fn {F : FTy → Type} [FloatOps F] (main_arg0 : FVec F S1048576x3 .f32) (main_arg1 : FVec F S1048576x4 .f32) (main_arg2 : FVec F S1048576x3 .f32) (main_arg3 : FVec F S1048576x4 .f32) (main_arg4 : FVec F S1048576x3 .f32) (main_arg5 : FVec F S1048576x4 .f32) (main_arg6 : FVec F S1048576x7 .f32) : IVec S_ 1 :=
  let main_v0 : FVec F S1048576x3 .f32 := Host.absf main_arg0
  let main_cst : FVec F S_ .f32 := constant S_ .f32 0x7F800000#32
  let main_v1 : FVec F S1048576x3 .f32 := broadcastInDim S1048576x3 ![] bcast_S_S1048576x3 main_cst
  let main_v2 : IVec S1048576x3 1 := cmpf .olt main_v0 main_v1
  let main_c : IVec S_ 1 := constantI S_ 1 1#1
  let main_v3 : IVec S_ 1 := (fun x v => Host.reduce IntOp.andi x v reducesTo_S1048576x3_S_d0_1 h_S_) main_v2 main_c
  let main_v4 : FVec F S1048576x4 .f32 := Host.absf main_arg1
  let main_cst_0 : FVec F S_ .f32 := constant S_ .f32 0x7F800000#32
  let main_v5 : FVec F S1048576x4 .f32 := broadcastInDim S1048576x4 ![] bcast_S_S1048576x4 main_cst_0
  let main_v6 : IVec S1048576x4 1 := cmpf .olt main_v4 main_v5
  let main_c_1 : IVec S_ 1 := constantI S_ 1 1#1
  let main_v7 : IVec S_ 1 := (fun x v => Host.reduce IntOp.andi x v reducesTo_S1048576x4_S_d0_1 h_S_) main_v6 main_c_1
  let main_v8 : IVec S_ 1 := andi main_v3 main_v7
  let main_v9 : FVec F S1048576x3 .f32 := Host.absf main_arg2
  let main_cst_2 : FVec F S_ .f32 := constant S_ .f32 0x7F800000#32
  let main_v10 : FVec F S1048576x3 .f32 := broadcastInDim S1048576x3 ![] bcast_S_S1048576x3 main_cst_2
  let main_v11 : IVec S1048576x3 1 := cmpf .olt main_v9 main_v10
  let main_c_3 : IVec S_ 1 := constantI S_ 1 1#1
  let main_v12 : IVec S_ 1 := (fun x v => Host.reduce IntOp.andi x v reducesTo_S1048576x3_S_d0_1 h_S_) main_v11 main_c_3
  let main_v13 : IVec S_ 1 := andi main_v8 main_v12
  let main_v14 : FVec F S1048576x4 .f32 := Host.absf main_arg3
  let main_cst_4 : FVec F S_ .f32 := constant S_ .f32 0x7F800000#32
  let main_v15 : FVec F S1048576x4 .f32 := broadcastInDim S1048576x4 ![] bcast_S_S1048576x4 main_cst_4
  let main_v16 : IVec S1048576x4 1 := cmpf .olt main_v14 main_v15
  fn_part1 (F := F) main_arg4 main_arg5 main_arg6 main_v13 main_v16
-- ==== Kernel.lean ====
abbrev S1048576x3 : Shape := ⟨2, ![1048576, 3]⟩
abbrev S1048576x4 : Shape := ⟨2, ![1048576, 4]⟩
abbrev S1048576x7 : Shape := ⟨2, ![1048576, 7]⟩
abbrev S1048576x28 : Shape := ⟨2, ![1048576, 28]⟩
abbrev S28x1048576 : Shape := ⟨2, ![28, 1048576]⟩
abbrev S2x1x1 : Shape := ⟨3, ![2, 1, 1]⟩
abbrev S28x16384 : Shape := ⟨2, ![28, 16384]⟩
abbrev S1x1x1 : Shape := ⟨3, ![1, 1, 1]⟩
abbrev S1x1 : Shape := ⟨2, ![1, 1]⟩
abbrev S1x16384 : Shape := ⟨2, ![1, 16384]⟩
abbrev S1 : Shape := ⟨1, ![1]⟩
abbrev S_ : Shape := ⟨0, ![]⟩

abbrev nBuf : Space → Nat
  | .hbm => 16
  | .vmem => 5
  | .smem => 0
  | _ => 0

abbrev bufTy : (tb : Table) → Fin (tcTables nBuf tb) → BufTy
  | .hbm, ⟨0, _⟩ => ⟨S1048576x3, .f32⟩
  | .hbm, ⟨1, _⟩ => ⟨S1048576x4, .f32⟩
  | .hbm, ⟨2, _⟩ => ⟨S1048576x3, .f32⟩
  | .hbm, ⟨3, _⟩ => ⟨S1048576x4, .f32⟩
  | .hbm, ⟨4, _⟩ => ⟨S1048576x3, .f32⟩
  | .hbm, ⟨5, _⟩ => ⟨S1048576x4, .f32⟩
  | .hbm, ⟨6, _⟩ => ⟨S1048576x7, .f32⟩
  | .hbm, ⟨7, _⟩ => ⟨S1048576x3, .f32⟩
  | .hbm, ⟨8, _⟩ => ⟨S1048576x4, .f32⟩
  | .hbm, ⟨9, _⟩ => ⟨S1048576x28, .f32⟩
  | .hbm, ⟨10, _⟩ => ⟨S28x1048576, .f32⟩
  | .hbm, ⟨11, _⟩ => ⟨S2x1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S28x16384, .f32⟩
  | .local _ .vmem, ⟨1, _⟩ => ⟨S28x16384, .f32⟩
  | .local _ .vmem, ⟨2, _⟩ => ⟨S1x1x1, .f32⟩
  | .local _ .vmem, ⟨3, _⟩ => ⟨S1x1x1, .f32⟩
  | .local _ .vmem, ⟨4, _⟩ => ⟨S1x1, .f32⟩
  | _, _ => ⟨S1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v160 : BitVec 1 := Scalar.cmpi .eq arg1 c31_i32
  let v161 : BitVec 32 := Scalar.extui v160
  let c0_i32_40 : BitVec 32 := 0#32
  let v162 : BitVec 1 := Scalar.cmpi .ne v161 c0_i32_40
  v162

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S28x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  slices_S1048576x7_S1048576x3_0_0 : S1048576x7.Slices ![0, 0] S1048576x3
  slices_S1048576x7_S1048576x4_0_3 : S1048576x7.Slices ![0, 3] S1048576x4
  concatenates_S1048576x3_S1048576x4_S1048576x3_S1048576x4_S1048576x3_S1048576x4_S1048576x3_S1048576x4_S1048576x28_d1 : Shape.Concatenates [S1048576x3, S1048576x4, S1048576x3, S1048576x4, S1048576x3, S1048576x4, S1048576x3, S1048576x4] S1048576x28 1
  transposes_S1048576x28_S28x1048576_1_0 : S1048576x28.Transposes [1, 0] S28x1048576
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S28x16384_S1x16384_0_0 : ∀ a, (![0, 0] : Fin 2 → Nat) a + S1x16384.size a ≤ S28x16384.size a
  h_S1x16384 : 0 < S1x16384.numel
  shapeCasts_S1x16384_S1x16384 : S1x16384.ShapeCasts S1x16384
  inb_S28x16384_S1x16384_1_0 : ∀ a, (![1, 0] : Fin 2 → Nat) a + S1x16384.size a ≤ S28x16384.size a
  inb_S28x16384_S1x16384_2_0 : ∀ a, (![2, 0] : Fin 2 → Nat) a + S1x16384.size a ≤ S28x16384.size a
  inb_S28x16384_S1x16384_3_0 : ∀ a, (![3, 0] : Fin 2 → Nat) a + S1x16384.size a ≤ S28x16384.size a
  inb_S28x16384_S1x16384_4_0 : ∀ a, (![4, 0] : Fin 2 → Nat) a + S1x16384.size a ≤ S28x16384.size a
  inb_S28x16384_S1x16384_5_0 : ∀ a, (![5, 0] : Fin 2 → Nat) a + S1x16384.size a ≤ S28x16384.size a
  inb_S28x16384_S1x16384_6_0 : ∀ a, (![6, 0] : Fin 2 → Nat) a + S1x16384.size a ≤ S28x16384.size a
  inb_S28x16384_S1x16384_7_0 : ∀ a, (![7, 0] : Fin 2 → Nat) a + S1x16384.size a ≤ S28x16384.size a
  inb_S28x16384_S1x16384_8_0 : ∀ a, (![8, 0] : Fin 2 → Nat) a + S1x16384.size a ≤ S28x16384.size a
  inb_S28x16384_S1x16384_9_0 : ∀ a, (![9, 0] : Fin 2 → Nat) a + S1x16384.size a ≤ S28x16384.size a
  inb_S28x16384_S1x16384_10_0 : ∀ a, (![10, 0] : Fin 2 → Nat) a + S1x16384.size a ≤ S28x16384.size a
  inb_S28x16384_S1x16384_11_0 : ∀ a, (![11, 0] : Fin 2 → Nat) a + S1x16384.size a ≤ S28x16384.size a
  inb_S28x16384_S1x16384_12_0 : ∀ a, (![12, 0] : Fin 2 → Nat) a + S1x16384.size a ≤ S28x16384.size a
  inb_S28x16384_S1x16384_13_0 : ∀ a, (![13, 0] : Fin 2 → Nat) a + S1x16384.size a ≤ S28x16384.size a
  inb_S28x16384_S1x16384_14_0 : ∀ a, (![14, 0] : Fin 2 → Nat) a + S1x16384.size a ≤ S28x16384.size a
  inb_S28x16384_S1x16384_15_0 : ∀ a, (![15, 0] : Fin 2 → Nat) a + S1x16384.size a ≤ S28x16384.size a
  inb_S28x16384_S1x16384_16_0 : ∀ a, (![16, 0] : Fin 2 → Nat) a + S1x16384.size a ≤ S28x16384.size a
  inb_S28x16384_S1x16384_17_0 : ∀ a, (![17, 0] : Fin 2 → Nat) a + S1x16384.size a ≤ S28x16384.size a
  inb_S28x16384_S1x16384_18_0 : ∀ a, (![18, 0] : Fin 2 → Nat) a + S1x16384.size a ≤ S28x16384.size a
  inb_S28x16384_S1x16384_19_0 : ∀ a, (![19, 0] : Fin 2 → Nat) a + S1x16384.size a ≤ S28x16384.size a
  inb_S28x16384_S1x16384_20_0 : ∀ a, (![20, 0] : Fin 2 → Nat) a + S1x16384.size a ≤ S28x16384.size a
  inb_S28x16384_S1x16384_21_0 : ∀ a, (![21, 0] : Fin 2 → Nat) a + S1x16384.size a ≤ S28x16384.size a
  inb_S28x16384_S1x16384_22_0 : ∀ a, (![22, 0] : Fin 2 → Nat) a + S1x16384.size a ≤ S28x16384.size a
  inb_S28x16384_S1x16384_23_0 : ∀ a, (![23, 0] : Fin 2 → Nat) a + S1x16384.size a ≤ S28x16384.size a
  inb_S28x16384_S1x16384_24_0 : ∀ a, (![24, 0] : Fin 2 → Nat) a + S1x16384.size a ≤ S28x16384.size a
  inb_S28x16384_S1x16384_25_0 : ∀ a, (![25, 0] : Fin 2 → Nat) a + S1x16384.size a ≤ S28x16384.size a
  inb_S28x16384_S1x16384_26_0 : ∀ a, (![26, 0] : Fin 2 → Nat) a + S1x16384.size a ≤ S28x16384.size a
  inb_S28x16384_S1x16384_27_0 : ∀ a, (![27, 0] : Fin 2 → Nat) a + S1x16384.size a ≤ S28x16384.size a
  reduces_S1x16384_S1 : S1x16384.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S28x16384.size a ≤ S28x1048576.size a
  hwx0_0 : ∀ i : grid0.Coords, EltTy.bits .f32 = 32 ∨ (Rect.block (s := S28x1048576) S28x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S2x1x1.size a
  hwx0_1 : ∀ i : grid0.Coords, EltTy.bits .f32 = 32 ∨ (Rect.block (s := S2x1x1) S1x1x1.size (cc0_transform_1 i) (hinb0_1 i)).WholeWords (EltTy.packing .f32)

variable [Facts₀]

abbrev win0_0 : Pipeline.Window sig grid0 :=
  Pipeline.Window.ofSpec (Memref.whole main_v3) S28x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S1048576x3 : Shape := ⟨2, ![1048576, 3]⟩
abbrev S1048576x4 : Shape := ⟨2, ![1048576, 4]⟩
abbrev S1048576x7 : Shape := ⟨2, ![1048576, 7]⟩
abbrev S_ : Shape := ⟨0, ![]⟩
abbrev S1048576 : Shape := ⟨1, ![1048576]⟩
abbrev S1048576x1 : Shape := ⟨2, ![1048576, 1]⟩

abbrev nBuf : Space → Nat
  | .hbm => 76
  | .vmem => 0
  | .smem => 0
  | _ => 0

abbrev bufTy : (tb : Table) → Fin (tcTables nBuf tb) → BufTy
  | .hbm, ⟨0, _⟩ => ⟨S1048576x3, .f32⟩
  | .hbm, ⟨1, _⟩ => ⟨S1048576x4, .f32⟩
  | .hbm, ⟨2, _⟩ => ⟨S1048576x3, .f32⟩
  | .hbm, ⟨3, _⟩ => ⟨S1048576x4, .f32⟩
  | .hbm, ⟨4, _⟩ => ⟨S1048576x3, .f32⟩
  | .hbm, ⟨5, _⟩ => ⟨S1048576x4, .f32⟩
  | .hbm, ⟨6, _⟩ => ⟨S1048576x7, .f32⟩
  | .hbm, ⟨7, _⟩ => ⟨S1048576x3, .f32⟩
  | .hbm, ⟨8, _⟩ => ⟨S1048576x4, .f32⟩
  | .hbm, ⟨9, _⟩ => ⟨S1048576x4, .f32⟩
  | .hbm, ⟨10, _⟩ => ⟨S_, .f32⟩
  | .hbm, ⟨11, _⟩ => ⟨S1048576, .f32⟩
  | .hbm, ⟨12, _⟩ => ⟨S1048576, .f32⟩
  | .hbm, ⟨13, _⟩ => ⟨S_, .f32⟩
  | .hbm, ⟨14, _⟩ => ⟨S1048576, .f32⟩
  | .hbm, ⟨15, _⟩ => ⟨S1048576, .f32⟩
  | .hbm, ⟨16, _⟩ => ⟨S1048576x1, .f32⟩
  | .hbm, ⟨17, _⟩ => ⟨S1048576x4, .f32⟩
  | .hbm, ⟨18, _⟩ => ⟨S1048576x4, .f32⟩
  | .hbm, ⟨19, _⟩ => ⟨S1048576x3, .f32⟩
  | .hbm, ⟨20, _⟩ => ⟨S1048576x3, .f32⟩
  | .hbm, ⟨21, _⟩ => ⟨S_, .f32⟩
  | .hbm, ⟨22, _⟩ => ⟨S1048576, .f32⟩
  | .hbm, ⟨23, _⟩ => ⟨S1048576, .f32⟩
  | .hbm, ⟨24, _⟩ => ⟨S1048576x4, .f32⟩
  | .hbm, ⟨25, _⟩ => ⟨S1048576x4, .f32⟩
  | .hbm, ⟨26, _⟩ => ⟨S_, .f32⟩
  | .hbm, ⟨27, _⟩ => ⟨S1048576, .f32⟩
  | .hbm, ⟨28, _⟩ => ⟨S1048576, .f32⟩
  | .hbm, ⟨29, _⟩ => ⟨S_, .f32⟩
  | .hbm, ⟨30, _⟩ => ⟨S1048576, .f32⟩
  | .hbm, ⟨31, _⟩ => ⟨S1048576, .f32⟩
  | .hbm, ⟨32, _⟩ => ⟨S1048576, .f32⟩
  | .hbm, ⟨33, _⟩ => ⟨S1048576x3, .f32⟩
  | .hbm, ⟨34, _⟩ => ⟨S1048576x3, .f32⟩
  | .hbm, ⟨35, _⟩ => ⟨S_, .f32⟩
  | .hbm, ⟨36, _⟩ => ⟨S1048576, .f32⟩
  | .hbm, ⟨37, _⟩ => ⟨S1048576, .f32⟩
  | .hbm, ⟨38, _⟩ => ⟨S1048576x4, .f32⟩
  | .hbm, ⟨39, _⟩ => ⟨S1048576x4, .f32⟩
  | .hbm, ⟨40, _⟩ => ⟨S_, .f32⟩
  | .hbm, ⟨41, _⟩ => ⟨S1048576, .f32⟩
  | .hbm, ⟨42, _⟩ => ⟨S1048576, .f32⟩
  | .hbm, ⟨43, _⟩ => ⟨S_, .f32⟩
  | .hbm, ⟨44, _⟩ => ⟨S1048576, .f32⟩
  | .hbm, ⟨45, _⟩ => ⟨S1048576, .f32⟩
  | .hbm, ⟨46, _⟩ => ⟨S1048576, .f32⟩
  | .hbm, ⟨47, _⟩ => ⟨S1048576x3, .f32⟩
  | .hbm, ⟨48, _⟩ => ⟨S1048576x3, .f32⟩
  | .hbm, ⟨49, _⟩ => ⟨S_, .f32⟩
  | .hbm, ⟨50, _⟩ => ⟨S1048576, .f32⟩
  | .hbm, ⟨51, _⟩ => ⟨S1048576, .f32⟩
  | .hbm, ⟨52, _⟩ => ⟨S1048576x4, .f32⟩
  | .hbm, ⟨53, _⟩ => ⟨S1048576x4, .f32⟩
  | .hbm, ⟨54, _⟩ => ⟨S_, .f32⟩
  | .hbm, ⟨55, _⟩ => ⟨S1048576, .f32⟩
  | .hbm, ⟨56, _⟩ => ⟨S1048576, .f32⟩
  | .hbm, ⟨57, _⟩ => ⟨S_, .f32⟩
  | .hbm, ⟨58, _⟩ => ⟨S1048576, .f32⟩
  | .hbm, ⟨59, _⟩ => ⟨S1048576, .f32⟩
  | .hbm, ⟨60, _⟩ => ⟨S1048576, .f32⟩
  | .hbm, ⟨61, _⟩ => ⟨S_, .f32⟩
  | .hbm, ⟨62, _⟩ => ⟨S1048576, .f32⟩
  | .hbm, ⟨63, _⟩ => ⟨S1048576, .f32⟩
  | .hbm, ⟨64, _⟩ => ⟨S_, .f32⟩
  | .hbm, ⟨65, _⟩ => ⟨S1048576, .f32⟩
  | .hbm, ⟨66, _⟩ => ⟨S1048576, .f32⟩
  | .hbm, ⟨67, _⟩ => ⟨S1048576, .f32⟩
  | .hbm, ⟨68, _⟩ => ⟨S_, .f32⟩
  | .hbm, ⟨69, _⟩ => ⟨S1048576, .f32⟩
  | .hbm, ⟨70, _⟩ => ⟨S1048576, .f32⟩
  | .hbm, ⟨71, _⟩ => ⟨S1048576, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  slices_S1048576x7_S1048576x3_0_0 : S1048576x7.Slices ![0, 0] S1048576x3
  slices_S1048576x7_S1048576x4_0_3 : S1048576x7.Slices ![0, 3] S1048576x4
  reducesTo_S1048576x4_S1048576_d1 : S1048576x4.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x4_0_1 : S1048576x1.BroadcastsInDim S1048576x4 (![0, 1] : Fin 2 → Fin S1048576x4.rank)
  reducesTo_S1048576x3_S1048576_d1 : S1048576x3.ReducesTo [1] S1048576
  reducesTo_S1048576_S_d0 : S1048576.ReducesTo [0] S_

variable [Facts₀]

class Facts : Prop extends Facts₀ where

variable [Facts]
-- ==== Proof.Kernel.Setup.lean ====
/-
  The program around its one pipelined region, for any float instance: what every device buffer holds when the
  region is entered (the seven argument arrays untouched, the 28 x 1048576 array of samples laid out by the host
  operations before it), the region's two windows (the sample array read in 64 blocks of 16384 columns, the two
  partial sums written back one per half of the grid), the two conditions of the body on the position within a
  half (first of 32, last of 32), and where the output window is idle.
-/
import proofs.«112681_j90555090468868_2_alg».proof.Proof.Gen.Kernel.Launch
import proofs.«112681_j90555090468868_2_alg».proof.Proof.Gen.Kernel.Skeleton
import proofs.«112681_j90555090468868_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A device's buffers when the region is entered: the launch contents after the host operations before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the windows' arrays and buffers that bypass the region, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write neither window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.nary_writes, StableHlo.ternary_writes, StableHlo.quaternary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The sample window's current staging buffer holds its block at every point, for any proof data whose array is
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the region -/

/-- A run that ends with every buffer outside the windows as the operations after the region leave it ends with
    the seven argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c)⟩) h

/-! ## The body's two conditions -/

/-- "This is the first of a half's 32 points": the body's first condition, as it computes it from the coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last of a half's 32 points": the body's second condition. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
/-- Except at a half's last point the output window is idle and not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The memrefs the body is called with -/

/-- One staging buffer of the output window, through which its contents are stated. -/
abbrev VO0_1 : View sig .tc .vmem S1x1x1 .f32 := (Memref.whole cc0_stg1_0 : Memref sig .tc .vmem S1x1x1 .f32).view
abbrev ms0_0 (t : Fin cfg0.N) : Memref sig .tc .vmem S28x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1 .f32 := win0_1.stage (cfg0.slots t 1)
abbrev hs0_1 (t : Fin cfg0.N) : (ms0_1 t).IsWhole := hstage0_1 ((cfg0.slots t 1).cast nbuf0_1)
/-- The running-sum scratch, a whole scoped buffer of the kernel's own. -/
abbrev scM0_0 : Memref sig .tc .vmem S1x1 .f32 := Memref.whole cc0_scratch0
abbrev VS0_0 : View sig .tc .vmem S1x1 .f32 := scM0_0.view

/-- What the region may use besides its windows: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frame

end
-- ==== Proof.Kernel.RunA.lean ====
/-
  The kernel body run symbolically at the first point of a half of the grid (the running sum is reset to zero, then the block's lane sum is added; nothing is stored into the output window):
  on whole staging buffers the body terminates without a fault, leaves the sample block as it found it, and leaves in
  the running-sum scratch (and, at a half's last point, in the output buffer) the values its stores wrote, recorded as
  the list of pieces the run finds.
-/
import proofs.«112681_j90555090468868_2_alg».proof.Proof.Kernel.Setup

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (output buffer, then scratch; last store first), with the body's run. -/
noncomputable def kernelRun0_A (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : cond0_0 i) (hc1 : ¬cond0_1 i)
    (x0 : Vec F S28x16384 .f32) :
    Σ' (L1 : List (View.Piece (Elt F) S1x1x1 .f32)), { LS0 : List (View.Piece (Elt F) S1x1 .f32) //
      ∀ (xi1 : Vec F S1x1x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__pose_loss_kernel i arg2 harg2 arg3 harg3 arg4 harg4) K } := by
  refine ⟨[], ?_, fun xi1 E K => ?run⟩
  case run =>
    simp only [cc0__pose_loss_kernel_eq_skeleton]; unfold cc0__pose_loss_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Frame

end
-- ==== Proof.Kernel.RunB.lean ====
/-
  The kernel body run symbolically at a point that is neither first nor last of a half (the block's lane sum is added to the running sum; nothing is stored into the output window):
  on whole staging buffers the body terminates without a fault, leaves the sample block as it found it, and leaves in
  the running-sum scratch (and, at a half's last point, in the output buffer) the values its stores wrote, recorded as
  the list of pieces the run finds.
-/
import proofs.«112681_j90555090468868_2_alg».proof.Proof.Kernel.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (output buffer, then scratch; last store first), with the body's run. -/
noncomputable def kernelRun0_B (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : ¬cond0_1 i)
    (x0 : Vec F S28x16384 .f32) (xs0 : Vec F S1x1 .f32) :
    Σ' (L1 : List (View.Piece (Elt F) S1x1x1 .f32)), { LS0 : List (View.Piece (Elt F) S1x1 .f32) //
      ∀ (xi1 : Vec F S1x1x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__pose_loss_kernel i arg2 harg2 arg3 harg3 arg4 harg4) K } := by
  refine ⟨[], ?_, fun xi1 E K => ?run⟩
  case run =>
    simp only [cc0__pose_loss_kernel_eq_skeleton]; unfold cc0__pose_loss_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Frame

end
-- ==== Proof.Kernel.RunC.lean ====
/-
  The kernel body run symbolically at the last point of a half (the block's lane sum is added to the running sum, and the sum is stored into the output window):
  on whole staging buffers the body terminates without a fault, leaves the sample block as it found it, and leaves in
  the running-sum scratch (and, at a half's last point, in the output buffer) the values its stores wrote, recorded as
  the list of pieces the run finds.
-/
import proofs.«112681_j90555090468868_2_alg».proof.Proof.Kernel.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (output buffer, then scratch; last store first), with the body's run. -/
noncomputable def kernelRun0_C (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : cond0_1 i)
    (x0 : Vec F S28x16384 .f32) (xs0 : Vec F S1x1 .f32) :
    Σ' (L1 : List (View.Piece (Elt F) S1x1x1 .f32)), { LS0 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__pose_loss_kernel i arg2 harg2 arg3 harg3 arg4 harg4) K } := by
  refine ⟨?_, ?_, fun E K => ?run⟩
  case run =>
    simp only [cc0__pose_loss_kernel_eq_skeleton]; unfold cc0__pose_loss_kernel_skel
    simp only [k0_part1_eq_skeleton, k0_part2_eq_skeleton, k0_part3_eq_skeleton, k0_part4_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Frame

end
-- ==== Proof.Kernel.Frame.lean ====
/-
  The frame of the program, for any float instance: what the running-sum scratch and the output buffer hold after
  each grid point (by recursion on the point: reset at a half's first point, accumulated after, stored out at a half's
  last point), the region's proof data over that, the body's obligation at every point from the three symbolic runs,
  the run of the whole program around the region, and the frame: every execution terminates without a fault and the
  seven argument arrays end as launched.
-/
import proofs.«112681_j90555090468868_2_alg».proof.Proof.Kernel.RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What case A leaves in the output buffer: its pieces read back (none: a placeholder nothing consults, the window being idle there). -/
def out0_A_1 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : cond0_0 i) (hc1 : ¬cond0_1 i)
    (x0 : Vec F S28x16384 .f32) : Vec F S1x1x1 .f32 :=
  VO0_1.read (Elt F) (VO0_1.writes (Elt F) VO0_1.junk (kernelRun0_A c i arg2 harg2 arg3 harg3 arg4 harg4 hc0 hc1 x0).1)

/-- Case A's stores into the running-sum scratch cover it. -/
theorem scover0_A_0 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : cond0_0 i) (hc1 : ¬cond0_1 i)
    (x0 : Vec F S28x16384 .f32) (y : S1x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x1.size (by sl_kernel_rfl) y

/-- What case A leaves in the running-sum scratch: its pieces read back. -/
def sout0_A_0 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : cond0_0 i) (hc1 : ¬cond0_1 i)
    (x0 : Vec F S28x16384 .f32) : Vec F S1x1 .f32 :=
  VS0_0.read (Elt F) (VS0_0.writes (Elt F) VS0_0.junk (kernelRun0_A c i arg2 harg2 arg3 harg3 arg4 harg4 hc0 hc1 x0).2.1)

/-- What case B leaves in the output buffer: its pieces read back (none: a placeholder nothing consults, the window being idle there). -/
def out0_B_1 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : ¬cond0_1 i)
    (x0 : Vec F S28x16384 .f32) (xs0 : Vec F S1x1 .f32) : Vec F S1x1x1 .f32 :=
  VO0_1.read (Elt F) (VO0_1.writes (Elt F) VO0_1.junk (kernelRun0_B c i arg2 harg2 arg3 harg3 arg4 harg4 hc0 hc1 x0 xs0).1)

/-- Case B's stores into the running-sum scratch cover it. -/
theorem scover0_B_0 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : ¬cond0_1 i)
    (x0 : Vec F S28x16384 .f32) (xs0 : Vec F S1x1 .f32) (y : S1x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x1.size (by sl_kernel_rfl) y

/-- What case B leaves in the running-sum scratch: its pieces read back. -/
def sout0_B_0 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : ¬cond0_1 i)
    (x0 : Vec F S28x16384 .f32) (xs0 : Vec F S1x1 .f32) : Vec F S1x1 .f32 :=
  VS0_0.read (Elt F) (VS0_0.writes (Elt F) VS0_0.junk (kernelRun0_B c i arg2 harg2 arg3 harg3 arg4 harg4 hc0 hc1 x0 xs0).2.1)

/-- At a half's last point the body's one store into the output buffer covers it. -/
theorem cover0_C_1 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : cond0_1 i)
    (x0 : Vec F S28x16384 .f32) (xs0 : Vec F S1x1 .f32) (y : S1x1x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1x1.size (by sl_kernel_rfl) y

/-- What case C leaves in the output buffer: its pieces read back. -/
def out0_C_1 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : cond0_1 i)
    (x0 : Vec F S28x16384 .f32) (xs0 : Vec F S1x1 .f32) : Vec F S1x1x1 .f32 :=
  VO0_1.read (Elt F) (VO0_1.writes (Elt F) VO0_1.junk (kernelRun0_C c i arg2 harg2 arg3 harg3 arg4 harg4 hc0 hc1 x0 xs0).1)

/-- Case C's stores into the running-sum scratch cover it. -/
theorem scover0_C_0 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : cond0_1 i)
    (x0 : Vec F S28x16384 .f32) (xs0 : Vec F S1x1 .f32) (y : S1x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x1.size (by sl_kernel_rfl) y

/-- What case C leaves in the running-sum scratch: its pieces read back. -/
def sout0_C_0 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : cond0_1 i)
    (x0 : Vec F S28x16384 .f32) (xs0 : Vec F S1x1 .f32) : Vec F S1x1 .f32 :=
  VS0_0.read (Elt F) (VS0_0.writes (Elt F) VS0_0.junk (kernelRun0_C c i arg2 harg2 arg3 harg3 arg4 harg4 hc0 hc1 x0 xs0).2.1)

/-! ## What the buffers hold after each point -/

/-- After the body at position `n`: the output buffer's contents and the running sum's, by recursion on the
    position — the case its residue modulo 32 selects, run on that point's sample block and, past a half's first
    point, on the running sum the position before left. -/
def outsAt0 (c : Dev nD) : (n : ℕ) → n < cfg0.N → Vec F S1x1x1 .f32 × Vec F S1x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 32 = 0 then
      if h1 : (n + 1) % 32 = 31 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 32 = 31 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

theorem outsAt0_A (c : Dev nD) (t : Fin cfg0.N) (h0 : t.val % 32 = 0) (h1 : ¬t.val % 32 = 31) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start what the launch hands over (the scratch at anything);
    afterwards the scratch at the running sum the position before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The region's proof data -/

/-- On device `c`: the arrays as the region finds them; after the body at point `t` the sample window's buffer at
    its block and the output window's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body's obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the residue of the position modulo 32 says which of the three runs applies; the invariant
    hands the run the scratch (at anything at the very first point, else at the running sum so far) and takes it back
    at this point's running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · by_cases h1 : t.val % 32 = 31
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1 t (fun h => h1 ((hcond0_1 t).mp h))) (noFlush0_1 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ )
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ )
          iexact Hg
        isplitl [Ho]; · iexact Ho
        isplitl [H0]; · iexact H0
        iexists _; iexact H1
  · by_cases h1 : t.val % 32 = 31
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ )
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1 t (fun h => h1 ((hcond0_1 t).mp h))) (noFlush0_1 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ )
          iexact Hg
        isplitl [Ho]; · iexact Ho
        isplitl [H0]; · iexact H0
        iexists _; iexact H1

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back, the running sum's value forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of the program terminates, and ends with each
    window's array at what the proof data computes and every other unscoped buffer as the operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every execution terminates without a fault and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Frame

end
-- ==== Proof.KernelIdeal.Setup.lean ====
/-
  The program around its one pipelined region, for any float instance: what every device buffer holds when the
  region is entered (the seven argument arrays untouched, the 28 x 1048576 array of samples laid out by the host
  operations before it), the region's two windows (the sample array read in 64 blocks of 16384 columns, the two
  partial sums written back one per half of the grid), the two conditions of the body on the position within a
  half (first of 32, last of 32), and where the output window is idle.
-/
import proofs.«112681_j90555090468868_2_alg».proof.Proof.Gen.KernelIdeal.Launch
import proofs.«112681_j90555090468868_2_alg».proof.Proof.Gen.KernelIdeal.Skeleton
import proofs.«112681_j90555090468868_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A device's buffers when the region is entered: the launch contents after the host operations before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the windows' arrays and buffers that bypass the region, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write neither window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.nary_writes, StableHlo.ternary_writes, StableHlo.quaternary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes it either: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The sample window's current staging buffer holds its block at every point, for any proof data whose array is
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the region -/

/-- A run that ends with every buffer outside the windows as the operations after the region leave it ends with
    the seven argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c)⟩) h

/-! ## The body's two conditions -/

/-- "This is the first of a half's 32 points": the body's first condition, as it computes it from the coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last of a half's 32 points": the body's second condition. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
/-- Except at a half's last point the output window is idle and not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The memrefs the body is called with -/

/-- One staging buffer of the output window, through which its contents are stated. -/
abbrev VO0_1 : View sig .tc .vmem S1x1x1 .f32 := (Memref.whole cc0_stg1_0 : Memref sig .tc .vmem S1x1x1 .f32).view
abbrev ms0_0 (t : Fin cfg0.N) : Memref sig .tc .vmem S28x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1 .f32 := win0_1.stage (cfg0.slots t 1)
abbrev hs0_1 (t : Fin cfg0.N) : (ms0_1 t).IsWhole := hstage0_1 ((cfg0.slots t 1).cast nbuf0_1)
/-- The running-sum scratch, a whole scoped buffer of the kernel's own. -/
abbrev scM0_0 : Memref sig .tc .vmem S1x1 .f32 := Memref.whole cc0_scratch0
abbrev VS0_0 : View sig .tc .vmem S1x1 .f32 := scM0_0.view

/-- What the region may use besides its windows: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frame

end
-- ==== Proof.KernelIdeal.RunA.lean ====
/-
  The kernel body run symbolically at the first point of a half of the grid (the running sum is reset to zero, then the block's lane sum is added; nothing is stored into the output window):
  on whole staging buffers the body terminates without a fault, leaves the sample block as it found it, and leaves in
  the running-sum scratch (and, at a half's last point, in the output buffer) the values its stores wrote, recorded as
  the list of pieces the run finds.
-/
import proofs.«112681_j90555090468868_2_alg».proof.Proof.KernelIdeal.Setup

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (output buffer, then scratch; last store first), with the body's run. -/
noncomputable def kernelRun0_A (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : cond0_0 i) (hc1 : ¬cond0_1 i)
    (x0 : Vec F S28x16384 .f32) :
    Σ' (L1 : List (View.Piece (Elt F) S1x1x1 .f32)), { LS0 : List (View.Piece (Elt F) S1x1 .f32) //
      ∀ (xi1 : Vec F S1x1x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__pose_loss_kernel i arg2 harg2 arg3 harg3 arg4 harg4) K } := by
  refine ⟨[], ?_, fun xi1 E K => ?run⟩
  case run =>
    simp only [cc0__pose_loss_kernel_eq_skeleton]; unfold cc0__pose_loss_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Frame

end
-- ==== Proof.KernelIdeal.RunB.lean ====
/-
  The kernel body run symbolically at a point that is neither first nor last of a half (the block's lane sum is added to the running sum; nothing is stored into the output window):
  on whole staging buffers the body terminates without a fault, leaves the sample block as it found it, and leaves in
  the running-sum scratch (and, at a half's last point, in the output buffer) the values its stores wrote, recorded as
  the list of pieces the run finds.
-/
import proofs.«112681_j90555090468868_2_alg».proof.Proof.KernelIdeal.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (output buffer, then scratch; last store first), with the body's run. -/
noncomputable def kernelRun0_B (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : ¬cond0_1 i)
    (x0 : Vec F S28x16384 .f32) (xs0 : Vec F S1x1 .f32) :
    Σ' (L1 : List (View.Piece (Elt F) S1x1x1 .f32)), { LS0 : List (View.Piece (Elt F) S1x1 .f32) //
      ∀ (xi1 : Vec F S1x1x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__pose_loss_kernel i arg2 harg2 arg3 harg3 arg4 harg4) K } := by
  refine ⟨[], ?_, fun xi1 E K => ?run⟩
  case run =>
    simp only [cc0__pose_loss_kernel_eq_skeleton]; unfold cc0__pose_loss_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Frame

end
-- ==== Proof.KernelIdeal.RunC.lean ====
/-
  The kernel body run symbolically at the last point of a half (the block's lane sum is added to the running sum, and the sum is stored into the output window):
  on whole staging buffers the body terminates without a fault, leaves the sample block as it found it, and leaves in
  the running-sum scratch (and, at a half's last point, in the output buffer) the values its stores wrote, recorded as
  the list of pieces the run finds.
-/
import proofs.«112681_j90555090468868_2_alg».proof.Proof.KernelIdeal.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (output buffer, then scratch; last store first), with the body's run. -/
noncomputable def kernelRun0_C (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : cond0_1 i)
    (x0 : Vec F S28x16384 .f32) (xs0 : Vec F S1x1 .f32) :
    Σ' (L1 : List (View.Piece (Elt F) S1x1x1 .f32)), { LS0 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__pose_loss_kernel i arg2 harg2 arg3 harg3 arg4 harg4) K } := by
  refine ⟨?_, ?_, fun E K => ?run⟩
  case run =>
    simp only [cc0__pose_loss_kernel_eq_skeleton]; unfold cc0__pose_loss_kernel_skel
    simp only [k0_part1_eq_skeleton, k0_part2_eq_skeleton, k0_part3_eq_skeleton, k0_part4_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Frame

end
-- ==== Proof.KernelIdeal.Frame.lean ====
/-
  The frame of the program, for any float instance: what the running-sum scratch and the output buffer hold after
  each grid point (by recursion on the point: reset at a half's first point, accumulated after, stored out at a half's
  last point), the region's proof data over that, the body's obligation at every point from the three symbolic runs,
  the run of the whole program around the region, and the frame: every execution terminates without a fault and the
  seven argument arrays end as launched.
-/
import proofs.«112681_j90555090468868_2_alg».proof.Proof.KernelIdeal.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What case A leaves in the output buffer: its pieces read back (none: a placeholder nothing consults, the window being idle there). -/
def out0_A_1 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : cond0_0 i) (hc1 : ¬cond0_1 i)
    (x0 : Vec F S28x16384 .f32) : Vec F S1x1x1 .f32 :=
  VO0_1.read (Elt F) (VO0_1.writes (Elt F) VO0_1.junk (kernelRun0_A c i arg2 harg2 arg3 harg3 arg4 harg4 hc0 hc1 x0).1)

/-- Case A's stores into the running-sum scratch cover it. -/
theorem scover0_A_0 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : cond0_0 i) (hc1 : ¬cond0_1 i)
    (x0 : Vec F S28x16384 .f32) (y : S1x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x1.size (by sl_kernel_rfl) y

/-- What case A leaves in the running-sum scratch: its pieces read back. -/
def sout0_A_0 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : cond0_0 i) (hc1 : ¬cond0_1 i)
    (x0 : Vec F S28x16384 .f32) : Vec F S1x1 .f32 :=
  VS0_0.read (Elt F) (VS0_0.writes (Elt F) VS0_0.junk (kernelRun0_A c i arg2 harg2 arg3 harg3 arg4 harg4 hc0 hc1 x0).2.1)

/-- What case B leaves in the output buffer: its pieces read back (none: a placeholder nothing consults, the window being idle there). -/
def out0_B_1 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : ¬cond0_1 i)
    (x0 : Vec F S28x16384 .f32) (xs0 : Vec F S1x1 .f32) : Vec F S1x1x1 .f32 :=
  VO0_1.read (Elt F) (VO0_1.writes (Elt F) VO0_1.junk (kernelRun0_B c i arg2 harg2 arg3 harg3 arg4 harg4 hc0 hc1 x0 xs0).1)

/-- Case B's stores into the running-sum scratch cover it. -/
theorem scover0_B_0 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : ¬cond0_1 i)
    (x0 : Vec F S28x16384 .f32) (xs0 : Vec F S1x1 .f32) (y : S1x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x1.size (by sl_kernel_rfl) y

/-- What case B leaves in the running-sum scratch: its pieces read back. -/
def sout0_B_0 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : ¬cond0_1 i)
    (x0 : Vec F S28x16384 .f32) (xs0 : Vec F S1x1 .f32) : Vec F S1x1 .f32 :=
  VS0_0.read (Elt F) (VS0_0.writes (Elt F) VS0_0.junk (kernelRun0_B c i arg2 harg2 arg3 harg3 arg4 harg4 hc0 hc1 x0 xs0).2.1)

/-- At a half's last point the body's one store into the output buffer covers it. -/
theorem cover0_C_1 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : cond0_1 i)
    (x0 : Vec F S28x16384 .f32) (xs0 : Vec F S1x1 .f32) (y : S1x1x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1x1.size (by sl_kernel_rfl) y

/-- What case C leaves in the output buffer: its pieces read back. -/
def out0_C_1 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : cond0_1 i)
    (x0 : Vec F S28x16384 .f32) (xs0 : Vec F S1x1 .f32) : Vec F S1x1x1 .f32 :=
  VO0_1.read (Elt F) (VO0_1.writes (Elt F) VO0_1.junk (kernelRun0_C c i arg2 harg2 arg3 harg3 arg4 harg4 hc0 hc1 x0 xs0).1)

/-- Case C's stores into the running-sum scratch cover it. -/
theorem scover0_C_0 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : cond0_1 i)
    (x0 : Vec F S28x16384 .f32) (xs0 : Vec F S1x1 .f32) (y : S1x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x1.size (by sl_kernel_rfl) y

/-- What case C leaves in the running-sum scratch: its pieces read back. -/
def sout0_C_0 (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : cond0_1 i)
    (x0 : Vec F S28x16384 .f32) (xs0 : Vec F S1x1 .f32) : Vec F S1x1 .f32 :=
  VS0_0.read (Elt F) (VS0_0.writes (Elt F) VS0_0.junk (kernelRun0_C c i arg2 harg2 arg3 harg3 arg4 harg4 hc0 hc1 x0 xs0).2.1)

/-! ## What the buffers hold after each point -/

/-- After the body at position `n`: the output buffer's contents and the running sum's, by recursion on the
    position — the case its residue modulo 32 selects, run on that point's sample block and, past a half's first
    point, on the running sum the position before left. -/
def outsAt0 (c : Dev nD) : (n : ℕ) → n < cfg0.N → Vec F S1x1x1 .f32 × Vec F S1x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 32 = 0 then
      if h1 : (n + 1) % 32 = 31 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 32 = 31 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

theorem outsAt0_A (c : Dev nD) (t : Fin cfg0.N) (h0 : t.val % 32 = 0) (h1 : ¬t.val % 32 = 31) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start what the launch hands over (the scratch at anything);
    afterwards the scratch at the running sum the position before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The region's proof data -/

/-- On device `c`: the arrays as the region finds them; after the body at point `t` the sample window's buffer at
    its block and the output window's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body's obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the residue of the position modulo 32 says which of the three runs applies; the invariant
    hands the run the scratch (at anything at the very first point, else at the running sum so far) and takes it back
    at this point's running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · by_cases h1 : t.val % 32 = 31
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1 t (fun h => h1 ((hcond0_1 t).mp h))) (noFlush0_1 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ )
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ )
          iexact Hg
        isplitl [Ho]; · iexact Ho
        isplitl [H0]; · iexact H0
        iexists _; iexact H1
  · by_cases h1 : t.val % 32 = 31
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ )
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1 t (fun h => h1 ((hcond0_1 t).mp h))) (noFlush0_1 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ )
          iexact Hg
        isplitl [Ho]; · iexact Ho
        isplitl [H0]; · iexact H0
        iexists _; iexact H1

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back, the running sum's value forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of the program terminates, and ends with each
    window's array at what the proof data computes and every other unscoped buffer as the operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every execution terminates without a fault and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Frame

end
-- ==== Proof.KernelIdeal.Pieces.lean ====
/-
  The values the symbolic runs found, read back, for any float instance.  At every grid point the body stores into the
  running-sum scratch ONE value, a function `step` of the point's 28 x 16384 sample block and of the running sum it
  loaded (the zero it has just stored, at a half's first point); at a half's last point it also stores the new running
  sum, re-shaped, into the output buffer.  So after position `n` the scratch holds the fold of `step` over the blocks of
  the half so far (`acc`), by induction on the position.
-/
import proofs.«112681_j90555090468868_2_alg».proof.Proof.KernelIdeal.Frame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body stores into the running-sum scratch: the stored payload over the 28 rows loaded from the sample
    block `x0` and the running sum `acc` loaded from the scratch. -/
def step (x0 : Vec F S28x16384 .f32) (acc : Vec F S1x1 .f32) : Vec F S1x1 .f32 :=
  k0_pay38 (k0_pay16 (View.ld x0 (Rect.unit (s := S28x16384) ![14, 0] S1x16384.size inb_S28x16384_S1x16384_14_0))) (k0_pay17 (View.ld x0 (Rect.unit (s := S28x16384) ![15, 0] S1x16384.size inb_S28x16384_S1x16384_15_0))) (k0_pay18 (View.ld x0 (Rect.unit (s := S28x16384) ![16, 0] S1x16384.size inb_S28x16384_S1x16384_16_0))) (k0_pay19 (View.ld x0 (Rect.unit (s := S28x16384) ![17, 0] S1x16384.size inb_S28x16384_S1x16384_17_0))) (k0_pay20 (View.ld x0 (Rect.unit (s := S28x16384) ![18, 0] S1x16384.size inb_S28x16384_S1x16384_18_0))) (k0_pay21 (View.ld x0 (Rect.unit (s := S28x16384) ![19, 0] S1x16384.size inb_S28x16384_S1x16384_19_0))) (k0_pay22 (View.ld x0 (Rect.unit (s := S28x16384) ![20, 0] S1x16384.size inb_S28x16384_S1x16384_20_0))) (k0_pay23 (View.ld x0 (Rect.unit (s := S28x16384) ![21, 0] S1x16384.size inb_S28x16384_S1x16384_21_0))) (k0_pay24 (View.ld x0 (Rect.unit (s := S28x16384) ![22, 0] S1x16384.size inb_S28x16384_S1x16384_22_0))) (k0_pay25 (View.ld x0 (Rect.unit (s := S28x16384) ![23, 0] S1x16384.size inb_S28x16384_S1x16384_23_0)))
    (k0_pay31 (k0_pay26 (View.ld x0 (Rect.unit (s := S28x16384) ![24, 0] S1x16384.size inb_S28x16384_S1x16384_24_0))) (k0_pay27 (View.ld x0 (Rect.unit (s := S28x16384) ![25, 0] S1x16384.size inb_S28x16384_S1x16384_25_0))) (k0_pay28 (View.ld x0 (Rect.unit (s := S28x16384) ![26, 0] S1x16384.size inb_S28x16384_S1x16384_26_0))) (k0_pay29 (View.ld x0 (Rect.unit (s := S28x16384) ![27, 0] S1x16384.size inb_S28x16384_S1x16384_27_0)))) (k0_pay32 (k0_pay26 (View.ld x0 (Rect.unit (s := S28x16384) ![24, 0] S1x16384.size inb_S28x16384_S1x16384_24_0))) (k0_pay27 (View.ld x0 (Rect.unit (s := S28x16384) ![25, 0] S1x16384.size inb_S28x16384_S1x16384_25_0))) (k0_pay28 (View.ld x0 (Rect.unit (s := S28x16384) ![26, 0] S1x16384.size inb_S28x16384_S1x16384_26_0))) (k0_pay29 (View.ld x0 (Rect.unit (s := S28x16384) ![27, 0] S1x16384.size inb_S28x16384_S1x16384_27_0)))) (k0_pay33 (k0_pay26 (View.ld x0 (Rect.unit (s := S28x16384) ![24, 0] S1x16384.size inb_S28x16384_S1x16384_24_0))) (k0_pay27 (View.ld x0 (Rect.unit (s := S28x16384) ![25, 0] S1x16384.size inb_S28x16384_S1x16384_25_0))) (k0_pay28 (View.ld x0 (Rect.unit (s := S28x16384) ![26, 0] S1x16384.size inb_S28x16384_S1x16384_26_0))) (k0_pay29 (View.ld x0 (Rect.unit (s := S28x16384) ![27, 0] S1x16384.size inb_S28x16384_S1x16384_27_0)))) (k0_pay34 (k0_pay26 (View.ld x0 (Rect.unit (s := S28x16384) ![24, 0] S1x16384.size inb_S28x16384_S1x16384_24_0))) (k0_pay27 (View.ld x0 (Rect.unit (s := S28x16384) ![25, 0] S1x16384.size inb_S28x16384_S1x16384_25_0))) (k0_pay28 (View.ld x0 (Rect.unit (s := S28x16384) ![26, 0] S1x16384.size inb_S28x16384_S1x16384_26_0))) (k0_pay29 (View.ld x0 (Rect.unit (s := S28x16384) ![27, 0] S1x16384.size inb_S28x16384_S1x16384_27_0))))
    (k0_pay35 (k0_pay2 (View.ld x0 (Rect.unit (s := S28x16384) ![0, 0] S1x16384.size inb_S28x16384_S1x16384_0_0))) (k0_pay3 (View.ld x0 (Rect.unit (s := S28x16384) ![1, 0] S1x16384.size inb_S28x16384_S1x16384_1_0))) (k0_pay4 (View.ld x0 (Rect.unit (s := S28x16384) ![2, 0] S1x16384.size inb_S28x16384_S1x16384_2_0))) (k0_pay5 (View.ld x0 (Rect.unit (s := S28x16384) ![3, 0] S1x16384.size inb_S28x16384_S1x16384_3_0))) (k0_pay6 (View.ld x0 (Rect.unit (s := S28x16384) ![4, 0] S1x16384.size inb_S28x16384_S1x16384_4_0))) (k0_pay7 (View.ld x0 (Rect.unit (s := S28x16384) ![5, 0] S1x16384.size inb_S28x16384_S1x16384_5_0))) (k0_pay8 (View.ld x0 (Rect.unit (s := S28x16384) ![6, 0] S1x16384.size inb_S28x16384_S1x16384_6_0))) (k0_pay23 (View.ld x0 (Rect.unit (s := S28x16384) ![21, 0] S1x16384.size inb_S28x16384_S1x16384_21_0))) (k0_pay24 (View.ld x0 (Rect.unit (s := S28x16384) ![22, 0] S1x16384.size inb_S28x16384_S1x16384_22_0))) (k0_pay25 (View.ld x0 (Rect.unit (s := S28x16384) ![23, 0] S1x16384.size inb_S28x16384_S1x16384_23_0))) (k0_pay26 (View.ld x0 (Rect.unit (s := S28x16384) ![24, 0] S1x16384.size inb_S28x16384_S1x16384_24_0))) (k0_pay27 (View.ld x0 (Rect.unit (s := S28x16384) ![25, 0] S1x16384.size inb_S28x16384_S1x16384_25_0))) (k0_pay28 (View.ld x0 (Rect.unit (s := S28x16384) ![26, 0] S1x16384.size inb_S28x16384_S1x16384_26_0))) (k0_pay29 (View.ld x0 (Rect.unit (s := S28x16384) ![27, 0] S1x16384.size inb_S28x16384_S1x16384_27_0))))
    (k0_pay36 (k0_pay9 (View.ld x0 (Rect.unit (s := S28x16384) ![7, 0] S1x16384.size inb_S28x16384_S1x16384_7_0))) (k0_pay10 (View.ld x0 (Rect.unit (s := S28x16384) ![8, 0] S1x16384.size inb_S28x16384_S1x16384_8_0))) (k0_pay11 (View.ld x0 (Rect.unit (s := S28x16384) ![9, 0] S1x16384.size inb_S28x16384_S1x16384_9_0))) (k0_pay23 (View.ld x0 (Rect.unit (s := S28x16384) ![21, 0] S1x16384.size inb_S28x16384_S1x16384_21_0))) (k0_pay24 (View.ld x0 (Rect.unit (s := S28x16384) ![22, 0] S1x16384.size inb_S28x16384_S1x16384_22_0))) (k0_pay25 (View.ld x0 (Rect.unit (s := S28x16384) ![23, 0] S1x16384.size inb_S28x16384_S1x16384_23_0))))
    (k0_pay37 (k0_pay12 (View.ld x0 (Rect.unit (s := S28x16384) ![10, 0] S1x16384.size inb_S28x16384_S1x16384_10_0))) (k0_pay13 (View.ld x0 (Rect.unit (s := S28x16384) ![11, 0] S1x16384.size inb_S28x16384_S1x16384_11_0))) (k0_pay14 (View.ld x0 (Rect.unit (s := S28x16384) ![12, 0] S1x16384.size inb_S28x16384_S1x16384_12_0))) (k0_pay15 (View.ld x0 (Rect.unit (s := S28x16384) ![13, 0] S1x16384.size inb_S28x16384_S1x16384_13_0))) (k0_pay26 (View.ld x0 (Rect.unit (s := S28x16384) ![24, 0] S1x16384.size inb_S28x16384_S1x16384_24_0))) (k0_pay27 (View.ld x0 (Rect.unit (s := S28x16384) ![25, 0] S1x16384.size inb_S28x16384_S1x16384_25_0))) (k0_pay28 (View.ld x0 (Rect.unit (s := S28x16384) ![26, 0] S1x16384.size inb_S28x16384_S1x16384_26_0))) (k0_pay29 (View.ld x0 (Rect.unit (s := S28x16384) ![27, 0] S1x16384.size inb_S28x16384_S1x16384_27_0))))
    acc

/-- The zero the reset stores. -/
abbrev zero11 : Vec F S1x1 .f32 := k0_pay1 (F := F)

theorem sout_B (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : ¬cond0_1 i) (x0 : Vec F S28x16384 .f32) (xs0 : Vec F S1x1 .f32) :
    sout0_B_0 c i arg2 harg2 arg3 harg3 arg4 harg4 hc0 hc1 x0 xs0 = step x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero hz2]
  simp only [View.readAt_eq_ld, harg2.read_unread, harg4.read_unread, View.ld_unit_zero (S := S1x1) hz2]
  rfl

theorem sout_C (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : cond0_1 i) (x0 : Vec F S28x16384 .f32) (xs0 : Vec F S1x1 .f32) :
    sout0_C_0 c i arg2 harg2 arg3 harg3 arg4 harg4 hc0 hc1 x0 xs0 = step x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz2]
  simp only [View.readAt_eq_ld, harg2.read_unread, harg4.read_unread, View.ld_unit_zero (S := S1x1) hz2]
  rfl

theorem sout_A (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : cond0_0 i) (hc1 : ¬cond0_1 i) (x0 : Vec F S28x16384 .f32) :
    sout0_A_0 c i arg2 harg2 arg3 harg3 arg4 harg4 hc0 hc1 x0 = step x0 zero11 := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S1x1) hz2, View.readCov_unit_zero (S := S1x1) _ hz2]
  simp only [View.readAt_eq_ld, harg2.read_unread]
  rfl

theorem out_C (c : Dev nD) (i : grid0.Coords) (arg2 : Memref sig .tc .vmem S28x16384 .f32) (harg2 : arg2.IsWhole) (arg3 : Memref sig .tc .vmem S1x1x1 .f32) (harg3 : arg3.IsWhole) (arg4 : Memref sig .tc .vmem S1x1 .f32) (harg4 : arg4.IsWhole) (hc0 : ¬cond0_0 i) (hc1 : cond0_1 i) (x0 : Vec F S28x16384 .f32) (xs0 : Vec F S1x1 .f32) :
    out0_C_1 c i arg2 harg2 arg3 harg3 arg4 harg4 hc0 hc1 x0 xs0 = k0_pay39 (F := F) (step x0 xs0) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz3, View.readCov_unit_zero (S := S1x1) _ hz2]
  simp only [View.readAt_eq_ld, harg2.read_unread, harg4.read_unread, View.ld_unit_zero (S := S1x1) hz2]
  rfl

/-! ## The running sum after each position -/

/-- The running sum after position `n`: `step` of the position's block over the zero at a half's first position,
    over the running sum before otherwise. -/
def acc (c : Dev nD) : (n : ℕ) → n < cfg0.N → Vec F S1x1 .f32
  | 0, h => step (iblk m c 0 ⟨0, h⟩) zero11
  | n + 1, h => if (n + 1) % 32 = 0 then step (iblk m c 0 ⟨n + 1, h⟩) zero11
      else step (iblk m c 0 ⟨n + 1, h⟩) (acc c n (Nat.lt_of_succ_lt h))

/-- The scratch after position `n` holds the running sum. -/
theorem outsAt_snd (c : Dev nD) : ∀ (n : ℕ) (h : n < cfg0.N), (outsAt0 m c n h).2 = acc m c n h
  | 0, h => by
    rw [outsAt0_A m c ⟨0, h⟩ rfl (by dsimp only; decide)]
    dsimp only
    exact sout_A ..
  | n + 1, h => by
    by_cases h0 : (n + 1) % 32 = 0
    · have h1 : ¬(n + 1) % 32 = 31 := by omega
      rw [outsAt0_A m c ⟨n + 1, h⟩ h0 h1]
      dsimp only
      rw [sout_A]; unfold acc; rw [if_pos h0]
    · by_cases h1 : (n + 1) % 32 = 31
      · rw [outsAt0_C m c ⟨n + 1, h⟩ h0 h1]
        dsimp only
        rw [sout_C]; unfold acc; rw [if_neg h0]
        show step _ (outsAt0 m c n _).2 = step _ (acc m c n _)
        rw [outsAt_snd c n]
      · rw [outsAt0_B m c ⟨n + 1, h⟩ h0 h1]
        dsimp only
        rw [sout_B]; unfold acc; rw [if_neg h0]
        show step _ (outsAt0 m c n _).2 = step _ (acc m c n _)
        rw [outsAt_snd c n]

/-- At a half's last position the output buffer holds the running sum, re-shaped. -/
theorem outsAt_fst (c : Dev nD) (t : Fin cfg0.N) (h1 : t.val % 32 = 31) :
    (outsAt0 m c t.val t.isLt).1 = k0_pay39 (F := F) (acc m c t.val t.isLt) := by
  have h0 : ¬t.val % 32 = 0 := by omega
  rw [outsAt0_C m c t h0 h1]
  dsimp only
  rw [out_C]
  obtain ⟨n, hn⟩ := t
  cases n with
  | zero => exact absurd (Nat.zero_mod _) h0
  | succ n =>
    unfold acc; rw [if_neg h0]
    show k0_pay39 (F := F) (step _ (outsAt0 m c n _).2) = k0_pay39 (F := F) (step _ (acc m c n _))
    rw [outsAt_snd m c n]

end Cert.KernelIdeal.Frame

end
-- ==== Proof.Spec.lean ====
/-
  The per-sample pose loss and its mean, as functions on the extended reals.

  A sample is a row of 28 numbers: three predicted positions (3 numbers each) and three predicted orientations
  (4 numbers each), interleaved as position 1, orientation 1, position 2, orientation 2, position 3, orientation 3,
  then the true position (3) and the true orientation (4).  The true orientation is divided by the larger of its
  Euclidean norm and a small constant; each of the three predictions contributes the distance of its position to the
  true position plus a weight times the distance of its orientation to the normalized true orientation; the three
  contributions are combined with weights 0.3, 0.3 and 1.  The loss is the sum of the samples' values divided by the
  number of samples.  Float literals are kept as the bit patterns of their single-precision values.
-/
import Idealize.ShloMosaic.PureOps.Ideal
import Idealize.ShloMosaic.Lib.ValueIdx

noncomputable section

open scoped BigOperators

namespace PoseLoss

open Idealize.ShloMosaic Idealize.ShloMosaic.ValueIdx

/-- The number of samples. -/
abbrev B : Nat := 1048576

/-- A float array of `B` rows of `d` numbers, at the extended reals. -/
abbrev Arr (d : Nat) : Type := (⟨2, ![B, d]⟩ : Shape).Idx → EReal

/-- The floor under the true orientation's norm (the single-precision value nearest 1e-12). -/
def eps : EReal := Ideal.ofBits .f32 0x2B8CBCCC#32
/-- The orientation weight 150. -/
def w150 : EReal := Ideal.ofBits .f32 0x43160000#32
/-- The orientation weight 500. -/
def w500 : EReal := Ideal.ofBits .f32 0x43FA0000#32
/-- The branch weight 0.3 (its single-precision value). -/
def w03 : EReal := Ideal.ofBits .f32 0x3E99999A#32
/-- The branch weight 1. -/
def w1 : EReal := Ideal.ofBits .f32 0x3F800000#32
/-- The number of samples as a float, 2^20. -/
def nB : EReal := Ideal.ofBits .f32 0x49800000#32

/-- The Euclidean distance of two triples. -/
def dist3 (a0 a1 a2 b0 b1 b2 : EReal) : EReal :=
  Ideal.sqrt ((a0 - b0) * (a0 - b0) + (a1 - b1) * (a1 - b1) + (a2 - b2) * (a2 - b2))

/-- The Euclidean distance of two quadruples. -/
def dist4 (a0 a1 a2 a3 b0 b1 b2 b3 : EReal) : EReal :=
  Ideal.sqrt ((a0 - b0) * (a0 - b0) + (a1 - b1) * (a1 - b1) + (a2 - b2) * (a2 - b2) + (a3 - b3) * (a3 - b3))

/-- The divisor of the true orientation: its Euclidean norm, floored at `eps`. -/
def qden (q0 q1 q2 q3 : EReal) : EReal :=
  max (Ideal.sqrt (q0 * q0 + q1 * q1 + q2 * q2 + q3 * q3)) eps

/-- One prediction's contribution: position distance plus `w` times orientation distance, the true orientation
    `q` divided by `d`. -/
def branch (w : EReal) (p0 p1 p2 o0 o1 o2 o3 g0 g1 g2 q0 q1 q2 q3 d : EReal) : EReal :=
  dist3 p0 p1 p2 g0 g1 g2
    + w * dist4 o0 o1 o2 o3 (Ideal.div q0 d) (Ideal.div q1 d) (Ideal.div q2 d) (Ideal.div q3 d)

/-- The loss of one sample, from its 28 numbers. -/
def sample (v : Fin 28 → EReal) : EReal :=
  w03 * branch w150 (v 0) (v 1) (v 2) (v 3) (v 4) (v 5) (v 6) (v 21) (v 22) (v 23) (v 24) (v 25) (v 26) (v 27)
          (qden (v 24) (v 25) (v 26) (v 27))
    + w03 * branch w150 (v 7) (v 8) (v 9) (v 10) (v 11) (v 12) (v 13) (v 21) (v 22) (v 23) (v 24) (v 25) (v 26) (v 27)
          (qden (v 24) (v 25) (v 26) (v 27))
    + w1 * branch w500 (v 14) (v 15) (v 16) (v 17) (v 18) (v 19) (v 20) (v 21) (v 22) (v 23) (v 24) (v 25) (v 26) (v 27)
          (qden (v 24) (v 25) (v 26) (v 27))

/-- Sample `r`'s 28 numbers, gathered from the seven argument arrays: positions and orientations of the three
    predictions in turn, then the true pose's position (its first three numbers) and orientation (its last four). -/
def row (x0 : Arr 3) (x1 : Arr 4) (x2 : Arr 3) (x3 : Arr 4) (x4 : Arr 3) (x5 : Arr 4) (x6 : Arr 7) (r : Fin B) :
    Fin 28 → EReal
  | ⟨0, _⟩ => x0 (ix2 r 0) | ⟨1, _⟩ => x0 (ix2 r 1) | ⟨2, _⟩ => x0 (ix2 r 2)
  | ⟨3, _⟩ => x1 (ix2 r 0) | ⟨4, _⟩ => x1 (ix2 r 1) | ⟨5, _⟩ => x1 (ix2 r 2) | ⟨6, _⟩ => x1 (ix2 r 3)
  | ⟨7, _⟩ => x2 (ix2 r 0) | ⟨8, _⟩ => x2 (ix2 r 1) | ⟨9, _⟩ => x2 (ix2 r 2)
  | ⟨10, _⟩ => x3 (ix2 r 0) | ⟨11, _⟩ => x3 (ix2 r 1) | ⟨12, _⟩ => x3 (ix2 r 2) | ⟨13, _⟩ => x3 (ix2 r 3)
  | ⟨14, _⟩ => x4 (ix2 r 0) | ⟨15, _⟩ => x4 (ix2 r 1) | ⟨16, _⟩ => x4 (ix2 r 2)
  | ⟨17, _⟩ => x5 (ix2 r 0) | ⟨18, _⟩ => x5 (ix2 r 1) | ⟨19, _⟩ => x5 (ix2 r 2) | ⟨20, _⟩ => x5 (ix2 r 3)
  | ⟨21, _⟩ => x6 (ix2 r 0) | ⟨22, _⟩ => x6 (ix2 r 1) | ⟨23, _⟩ => x6 (ix2 r 2)
  | ⟨24, _⟩ => x6 (ix2 r 3) | ⟨25, _⟩ => x6 (ix2 r 4) | ⟨26, _⟩ => x6 (ix2 r 5) | ⟨27, _⟩ => x6 (ix2 r 6)
  | ⟨_ + 28, h⟩ => absurd h (Nat.not_lt.2 (Nat.le_add_left _ _))

/-- The loss: the samples' values summed and divided by their number. -/
def total (x0 : Arr 3) (x1 : Arr 4) (x2 : Arr 3) (x3 : Arr 4) (x4 : Arr 3) (x5 : Arr 4) (x6 : Arr 7) : EReal :=
  Ideal.div (∑ r : Fin B, sample (row x0 x1 x2 x3 x4 x5 x6 r)) nB

end PoseLoss

end
-- ==== Proof.PrefixRead.lean ====
/-
  The array the kernel reads, at an index.

  Before the launch the seven argument arrays are gathered into one array of 28 rows and 1048576 columns: the true
  pose (7 numbers per sample) is cut into its first three and its last four columns, the eight pieces (of 3, 4, 3, 4,
  3, 4, 3 and 4 columns) are laid side by side into an array of 28 columns, and that array is transposed.  Row i,
  column j of the result is therefore number i of sample j: a column of the piece whose span of columns holds i, at
  i less the widths of the pieces before it (0, 3, 7, 10, 14, 17, 21, 24), and for the last two pieces a column of
  the true pose (the same column for the first cut, three further for the second).
-/
import proofs.«112681_j90555090468868_2_alg».proof.Proof.Spec
import proofs.«112681_j90555090468868_2_alg».proof.Proof.Gen.KernelIdeal
import Idealize.ShloMosaic.Lib.ValueIdx
import Idealize.ShloMosaic.Lib.ValueLayout
import Idealize.ShloMosaic.Lib.Pipeline.Value

noncomputable section

namespace PoseLoss.Prefix

open Idealize.ShloMosaic Idealize.ShloMosaic.ValueIdx
open Cert.KernelIdeal

section Pieces
variable {α : Type}

/-- Columns 0 to 2 of the eight pieces laid side by side are the columns of piece 0. -/
theorem cat_piece0 (x0 : S1048576x3.Idx → α) (x1 : S1048576x4.Idx → α) (x2 : S1048576x3.Idx → α) (x3 : S1048576x4.Idx → α)
    (x4 : S1048576x3.Idx → α) (x5 : S1048576x4.Idx → α) (y6 : S1048576x3.Idx → α) (y7 : S1048576x4.Idx → α)
    (hc : Shape.Concatenates [S1048576x3, S1048576x4, S1048576x3, S1048576x4, S1048576x3, S1048576x4, S1048576x3, S1048576x4] S1048576x28 1)
    (j : Fin 1048576) (c : Fin 28) (c' : Fin 3) (h : 0 + c'.val = c.val) :
    concatenate S1048576x28 1 [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) = x0 (ix2 j c') := by
  refine concatenate_apply_piece (t := S1048576x28) (1 : Fin 2) [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) 0
    (by show (0 : Nat) < 8; omega) S1048576x3 x0 rfl rfl 0 rfl (ix2 j c') ?_ h
  intro b hb
  match b with
  | ⟨0, _⟩ => rfl
  | ⟨1, _⟩ => exact absurd rfl hb

/-- Columns 3 to 6 of the eight pieces laid side by side are the columns of piece 1. -/
theorem cat_piece1 (x0 : S1048576x3.Idx → α) (x1 : S1048576x4.Idx → α) (x2 : S1048576x3.Idx → α) (x3 : S1048576x4.Idx → α)
    (x4 : S1048576x3.Idx → α) (x5 : S1048576x4.Idx → α) (y6 : S1048576x3.Idx → α) (y7 : S1048576x4.Idx → α)
    (hc : Shape.Concatenates [S1048576x3, S1048576x4, S1048576x3, S1048576x4, S1048576x3, S1048576x4, S1048576x3, S1048576x4] S1048576x28 1)
    (j : Fin 1048576) (c : Fin 28) (c' : Fin 4) (h : 3 + c'.val = c.val) :
    concatenate S1048576x28 1 [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) = x1 (ix2 j c') := by
  refine concatenate_apply_piece (t := S1048576x28) (1 : Fin 2) [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) 1
    (by show (1 : Nat) < 8; omega) S1048576x4 x1 rfl rfl 3 rfl (ix2 j c') ?_ h
  intro b hb
  match b with
  | ⟨0, _⟩ => rfl
  | ⟨1, _⟩ => exact absurd rfl hb

/-- Columns 7 to 9 of the eight pieces laid side by side are the columns of piece 2. -/
theorem cat_piece2 (x0 : S1048576x3.Idx → α) (x1 : S1048576x4.Idx → α) (x2 : S1048576x3.Idx → α) (x3 : S1048576x4.Idx → α)
    (x4 : S1048576x3.Idx → α) (x5 : S1048576x4.Idx → α) (y6 : S1048576x3.Idx → α) (y7 : S1048576x4.Idx → α)
    (hc : Shape.Concatenates [S1048576x3, S1048576x4, S1048576x3, S1048576x4, S1048576x3, S1048576x4, S1048576x3, S1048576x4] S1048576x28 1)
    (j : Fin 1048576) (c : Fin 28) (c' : Fin 3) (h : 7 + c'.val = c.val) :
    concatenate S1048576x28 1 [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) = x2 (ix2 j c') := by
  refine concatenate_apply_piece (t := S1048576x28) (1 : Fin 2) [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) 2
    (by show (2 : Nat) < 8; omega) S1048576x3 x2 rfl rfl 7 rfl (ix2 j c') ?_ h
  intro b hb
  match b with
  | ⟨0, _⟩ => rfl
  | ⟨1, _⟩ => exact absurd rfl hb

/-- Columns 10 to 13 of the eight pieces laid side by side are the columns of piece 3. -/
theorem cat_piece3 (x0 : S1048576x3.Idx → α) (x1 : S1048576x4.Idx → α) (x2 : S1048576x3.Idx → α) (x3 : S1048576x4.Idx → α)
    (x4 : S1048576x3.Idx → α) (x5 : S1048576x4.Idx → α) (y6 : S1048576x3.Idx → α) (y7 : S1048576x4.Idx → α)
    (hc : Shape.Concatenates [S1048576x3, S1048576x4, S1048576x3, S1048576x4, S1048576x3, S1048576x4, S1048576x3, S1048576x4] S1048576x28 1)
    (j : Fin 1048576) (c : Fin 28) (c' : Fin 4) (h : 10 + c'.val = c.val) :
    concatenate S1048576x28 1 [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) = x3 (ix2 j c') := by
  refine concatenate_apply_piece (t := S1048576x28) (1 : Fin 2) [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) 3
    (by show (3 : Nat) < 8; omega) S1048576x4 x3 rfl rfl 10 rfl (ix2 j c') ?_ h
  intro b hb
  match b with
  | ⟨0, _⟩ => rfl
  | ⟨1, _⟩ => exact absurd rfl hb

/-- Columns 14 to 16 of the eight pieces laid side by side are the columns of piece 4. -/
theorem cat_piece4 (x0 : S1048576x3.Idx → α) (x1 : S1048576x4.Idx → α) (x2 : S1048576x3.Idx → α) (x3 : S1048576x4.Idx → α)
    (x4 : S1048576x3.Idx → α) (x5 : S1048576x4.Idx → α) (y6 : S1048576x3.Idx → α) (y7 : S1048576x4.Idx → α)
    (hc : Shape.Concatenates [S1048576x3, S1048576x4, S1048576x3, S1048576x4, S1048576x3, S1048576x4, S1048576x3, S1048576x4] S1048576x28 1)
    (j : Fin 1048576) (c : Fin 28) (c' : Fin 3) (h : 14 + c'.val = c.val) :
    concatenate S1048576x28 1 [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) = x4 (ix2 j c') := by
  refine concatenate_apply_piece (t := S1048576x28) (1 : Fin 2) [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) 4
    (by show (4 : Nat) < 8; omega) S1048576x3 x4 rfl rfl 14 rfl (ix2 j c') ?_ h
  intro b hb
  match b with
  | ⟨0, _⟩ => rfl
  | ⟨1, _⟩ => exact absurd rfl hb

/-- Columns 17 to 20 of the eight pieces laid side by side are the columns of piece 5. -/
theorem cat_piece5 (x0 : S1048576x3.Idx → α) (x1 : S1048576x4.Idx → α) (x2 : S1048576x3.Idx → α) (x3 : S1048576x4.Idx → α)
    (x4 : S1048576x3.Idx → α) (x5 : S1048576x4.Idx → α) (y6 : S1048576x3.Idx → α) (y7 : S1048576x4.Idx → α)
    (hc : Shape.Concatenates [S1048576x3, S1048576x4, S1048576x3, S1048576x4, S1048576x3, S1048576x4, S1048576x3, S1048576x4] S1048576x28 1)
    (j : Fin 1048576) (c : Fin 28) (c' : Fin 4) (h : 17 + c'.val = c.val) :
    concatenate S1048576x28 1 [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) = x5 (ix2 j c') := by
  refine concatenate_apply_piece (t := S1048576x28) (1 : Fin 2) [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) 5
    (by show (5 : Nat) < 8; omega) S1048576x4 x5 rfl rfl 17 rfl (ix2 j c') ?_ h
  intro b hb
  match b with
  | ⟨0, _⟩ => rfl
  | ⟨1, _⟩ => exact absurd rfl hb

/-- Columns 21 to 23 of the eight pieces laid side by side are the columns of piece 6. -/
theorem cat_piece6 (x0 : S1048576x3.Idx → α) (x1 : S1048576x4.Idx → α) (x2 : S1048576x3.Idx → α) (x3 : S1048576x4.Idx → α)
    (x4 : S1048576x3.Idx → α) (x5 : S1048576x4.Idx → α) (y6 : S1048576x3.Idx → α) (y7 : S1048576x4.Idx → α)
    (hc : Shape.Concatenates [S1048576x3, S1048576x4, S1048576x3, S1048576x4, S1048576x3, S1048576x4, S1048576x3, S1048576x4] S1048576x28 1)
    (j : Fin 1048576) (c : Fin 28) (c' : Fin 3) (h : 21 + c'.val = c.val) :
    concatenate S1048576x28 1 [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) = y6 (ix2 j c') := by
  refine concatenate_apply_piece (t := S1048576x28) (1 : Fin 2) [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) 6
    (by show (6 : Nat) < 8; omega) S1048576x3 y6 rfl rfl 21 rfl (ix2 j c') ?_ h
  intro b hb
  match b with
  | ⟨0, _⟩ => rfl
  | ⟨1, _⟩ => exact absurd rfl hb

/-- Columns 24 to 27 of the eight pieces laid side by side are the columns of piece 7. -/
theorem cat_piece7 (x0 : S1048576x3.Idx → α) (x1 : S1048576x4.Idx → α) (x2 : S1048576x3.Idx → α) (x3 : S1048576x4.Idx → α)
    (x4 : S1048576x3.Idx → α) (x5 : S1048576x4.Idx → α) (y6 : S1048576x3.Idx → α) (y7 : S1048576x4.Idx → α)
    (hc : Shape.Concatenates [S1048576x3, S1048576x4, S1048576x3, S1048576x4, S1048576x3, S1048576x4, S1048576x3, S1048576x4] S1048576x28 1)
    (j : Fin 1048576) (c : Fin 28) (c' : Fin 4) (h : 24 + c'.val = c.val) :
    concatenate S1048576x28 1 [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) = y7 (ix2 j c') := by
  refine concatenate_apply_piece (t := S1048576x28) (1 : Fin 2) [⟨S1048576x3, x0⟩, ⟨S1048576x4, x1⟩, ⟨S1048576x3, x2⟩, ⟨S1048576x4, x3⟩, ⟨S1048576x3, x4⟩, ⟨S1048576x4, x5⟩, ⟨S1048576x3, y6⟩, ⟨S1048576x4, y7⟩] hc (ix2 j c) 7
    (by show (7 : Nat) < 8; omega) S1048576x4 y7 rfl rfl 24 rfl (ix2 j c') ?_ h
  intro b hb
  match b with
  | ⟨0, _⟩ => rfl
  | ⟨1, _⟩ => exact absurd rfl hb

end Pieces

/-- The two cuts of the true pose: its first three columns, and its last four. -/
theorem cut_first {α : Type} (x6 : S1048576x7.Idx → α) (hs3 : S1048576x7.Slices ![0, 0] S1048576x3) (j : Fin 1048576) (c' : Fin 3)
    (c : Fin 7) (h : c.val = 0 + c'.val) :
    extractStridedSlice S1048576x3 ![0, 0] x6 hs3 (ix2 j c') = x6 (ix2 j c) :=
  slice2_axis1_apply 0 x6 hs3 j c' c h

theorem cut_last {α : Type} (x6 : S1048576x7.Idx → α) (hs4 : S1048576x7.Slices ![0, 3] S1048576x4) (j : Fin 1048576) (c' : Fin 4)
    (c : Fin 7) (h : c.val = 3 + c'.val) :
    extractStridedSlice S1048576x4 ![0, 3] x6 hs4 (ix2 j c') = x6 (ix2 j c) :=
  slice2_axis1_apply 3 x6 hs4 j c' c h

set_option maxHeartbeats 2000000 in
/-- **The gathered array at row `i`, column `j` is number `i` of sample `j`.**  Stated for any proofs of the four shape
    relations the operations take. -/
theorem combined_apply' (x0 : Arr 3) (x1 : Arr 4) (x2 : Arr 3) (x3 : Arr 4) (x4 : Arr 3) (x5 : Arr 4) (x6 : Arr 7)
    (hs3 : S1048576x7.Slices ![0, 0] S1048576x3) (hs4 : S1048576x7.Slices ![0, 3] S1048576x4)
    (hc : Shape.Concatenates [S1048576x3, S1048576x4, S1048576x3, S1048576x4, S1048576x3, S1048576x4, S1048576x3, S1048576x4] S1048576x28 1)
    (ht : S1048576x28.Transposes [1, 0] S28x1048576) (i : Fin 28) (j : Fin 1048576) :
    transpose S28x1048576 [1, 0]
        (concatenate S1048576x28 1 [⟨S1048576x3, x0⟩, ⟨S1048576x4, x1⟩, ⟨S1048576x3, x2⟩, ⟨S1048576x4, x3⟩, ⟨S1048576x3, x4⟩, ⟨S1048576x4, x5⟩,
          ⟨S1048576x3, extractStridedSlice S1048576x3 ![0, 0] x6 hs3⟩, ⟨S1048576x4, extractStridedSlice S1048576x4 ![0, 3] x6 hs4⟩] hc)
        ht (ix2 i j)
      = row x0 x1 x2 x3 x4 x5 x6 j i := by
  refine (transpose_ix2_apply _ ht i j).trans ?_
  match i with
  | ⟨0, hi⟩ => exact cat_piece0 x0 x1 x2 x3 x4 x5 (extractStridedSlice S1048576x3 ![0, 0] x6 hs3) (extractStridedSlice S1048576x4 ![0, 3] x6 hs4) hc j ⟨0, hi⟩ ⟨0, by omega⟩ rfl
  | ⟨1, hi⟩ => exact cat_piece0 x0 x1 x2 x3 x4 x5 (extractStridedSlice S1048576x3 ![0, 0] x6 hs3) (extractStridedSlice S1048576x4 ![0, 3] x6 hs4) hc j ⟨1, hi⟩ ⟨1, by omega⟩ rfl
  | ⟨2, hi⟩ => exact cat_piece0 x0 x1 x2 x3 x4 x5 (extractStridedSlice S1048576x3 ![0, 0] x6 hs3) (extractStridedSlice S1048576x4 ![0, 3] x6 hs4) hc j ⟨2, hi⟩ ⟨2, by omega⟩ rfl
  | ⟨3, hi⟩ => exact cat_piece1 x0 x1 x2 x3 x4 x5 (extractStridedSlice S1048576x3 ![0, 0] x6 hs3) (extractStridedSlice S1048576x4 ![0, 3] x6 hs4) hc j ⟨3, hi⟩ ⟨0, by omega⟩ rfl
  | ⟨4, hi⟩ => exact cat_piece1 x0 x1 x2 x3 x4 x5 (extractStridedSlice S1048576x3 ![0, 0] x6 hs3) (extractStridedSlice S1048576x4 ![0, 3] x6 hs4) hc j ⟨4, hi⟩ ⟨1, by omega⟩ rfl
  | ⟨5, hi⟩ => exact cat_piece1 x0 x1 x2 x3 x4 x5 (extractStridedSlice S1048576x3 ![0, 0] x6 hs3) (extractStridedSlice S1048576x4 ![0, 3] x6 hs4) hc j ⟨5, hi⟩ ⟨2, by omega⟩ rfl
  | ⟨6, hi⟩ => exact cat_piece1 x0 x1 x2 x3 x4 x5 (extractStridedSlice S1048576x3 ![0, 0] x6 hs3) (extractStridedSlice S1048576x4 ![0, 3] x6 hs4) hc j ⟨6, hi⟩ ⟨3, by omega⟩ rfl
  | ⟨7, hi⟩ => exact cat_piece2 x0 x1 x2 x3 x4 x5 (extractStridedSlice S1048576x3 ![0, 0] x6 hs3) (extractStridedSlice S1048576x4 ![0, 3] x6 hs4) hc j ⟨7, hi⟩ ⟨0, by omega⟩ rfl
  | ⟨8, hi⟩ => exact cat_piece2 x0 x1 x2 x3 x4 x5 (extractStridedSlice S1048576x3 ![0, 0] x6 hs3) (extractStridedSlice S1048576x4 ![0, 3] x6 hs4) hc j ⟨8, hi⟩ ⟨1, by omega⟩ rfl
  | ⟨9, hi⟩ => exact cat_piece2 x0 x1 x2 x3 x4 x5 (extractStridedSlice S1048576x3 ![0, 0] x6 hs3) (extractStridedSlice S1048576x4 ![0, 3] x6 hs4) hc j ⟨9, hi⟩ ⟨2, by omega⟩ rfl
  | ⟨10, hi⟩ => exact cat_piece3 x0 x1 x2 x3 x4 x5 (extractStridedSlice S1048576x3 ![0, 0] x6 hs3) (extractStridedSlice S1048576x4 ![0, 3] x6 hs4) hc j ⟨10, hi⟩ ⟨0, by omega⟩ rfl
  | ⟨11, hi⟩ => exact cat_piece3 x0 x1 x2 x3 x4 x5 (extractStridedSlice S1048576x3 ![0, 0] x6 hs3) (extractStridedSlice S1048576x4 ![0, 3] x6 hs4) hc j ⟨11, hi⟩ ⟨1, by omega⟩ rfl
  | ⟨12, hi⟩ => exact cat_piece3 x0 x1 x2 x3 x4 x5 (extractStridedSlice S1048576x3 ![0, 0] x6 hs3) (extractStridedSlice S1048576x4 ![0, 3] x6 hs4) hc j ⟨12, hi⟩ ⟨2, by omega⟩ rfl
  | ⟨13, hi⟩ => exact cat_piece3 x0 x1 x2 x3 x4 x5 (extractStridedSlice S1048576x3 ![0, 0] x6 hs3) (extractStridedSlice S1048576x4 ![0, 3] x6 hs4) hc j ⟨13, hi⟩ ⟨3, by omega⟩ rfl
  | ⟨14, hi⟩ => exact cat_piece4 x0 x1 x2 x3 x4 x5 (extractStridedSlice S1048576x3 ![0, 0] x6 hs3) (extractStridedSlice S1048576x4 ![0, 3] x6 hs4) hc j ⟨14, hi⟩ ⟨0, by omega⟩ rfl
  | ⟨15, hi⟩ => exact cat_piece4 x0 x1 x2 x3 x4 x5 (extractStridedSlice S1048576x3 ![0, 0] x6 hs3) (extractStridedSlice S1048576x4 ![0, 3] x6 hs4) hc j ⟨15, hi⟩ ⟨1, by omega⟩ rfl
  | ⟨16, hi⟩ => exact cat_piece4 x0 x1 x2 x3 x4 x5 (extractStridedSlice S1048576x3 ![0, 0] x6 hs3) (extractStridedSlice S1048576x4 ![0, 3] x6 hs4) hc j ⟨16, hi⟩ ⟨2, by omega⟩ rfl
  | ⟨17, hi⟩ => exact cat_piece5 x0 x1 x2 x3 x4 x5 (extractStridedSlice S1048576x3 ![0, 0] x6 hs3) (extractStridedSlice S1048576x4 ![0, 3] x6 hs4) hc j ⟨17, hi⟩ ⟨0, by omega⟩ rfl
  | ⟨18, hi⟩ => exact cat_piece5 x0 x1 x2 x3 x4 x5 (extractStridedSlice S1048576x3 ![0, 0] x6 hs3) (extractStridedSlice S1048576x4 ![0, 3] x6 hs4) hc j ⟨18, hi⟩ ⟨1, by omega⟩ rfl
  | ⟨19, hi⟩ => exact cat_piece5 x0 x1 x2 x3 x4 x5 (extractStridedSlice S1048576x3 ![0, 0] x6 hs3) (extractStridedSlice S1048576x4 ![0, 3] x6 hs4) hc j ⟨19, hi⟩ ⟨2, by omega⟩ rfl
  | ⟨20, hi⟩ => exact cat_piece5 x0 x1 x2 x3 x4 x5 (extractStridedSlice S1048576x3 ![0, 0] x6 hs3) (extractStridedSlice S1048576x4 ![0, 3] x6 hs4) hc j ⟨20, hi⟩ ⟨3, by omega⟩ rfl
  | ⟨21, hi⟩ => exact (cat_piece6 x0 x1 x2 x3 x4 x5 (extractStridedSlice S1048576x3 ![0, 0] x6 hs3) (extractStridedSlice S1048576x4 ![0, 3] x6 hs4) hc j ⟨21, hi⟩ ⟨0, by omega⟩ rfl).trans (cut_first x6 hs3 j ⟨0, by omega⟩ ⟨0, by omega⟩ rfl)
  | ⟨22, hi⟩ => exact (cat_piece6 x0 x1 x2 x3 x4 x5 (extractStridedSlice S1048576x3 ![0, 0] x6 hs3) (extractStridedSlice S1048576x4 ![0, 3] x6 hs4) hc j ⟨22, hi⟩ ⟨1, by omega⟩ rfl).trans (cut_first x6 hs3 j ⟨1, by omega⟩ ⟨1, by omega⟩ rfl)
  | ⟨23, hi⟩ => exact (cat_piece6 x0 x1 x2 x3 x4 x5 (extractStridedSlice S1048576x3 ![0, 0] x6 hs3) (extractStridedSlice S1048576x4 ![0, 3] x6 hs4) hc j ⟨23, hi⟩ ⟨2, by omega⟩ rfl).trans (cut_first x6 hs3 j ⟨2, by omega⟩ ⟨2, by omega⟩ rfl)
  | ⟨24, hi⟩ => exact (cat_piece7 x0 x1 x2 x3 x4 x5 (extractStridedSlice S1048576x3 ![0, 0] x6 hs3) (extractStridedSlice S1048576x4 ![0, 3] x6 hs4) hc j ⟨24, hi⟩ ⟨0, by omega⟩ rfl).trans (cut_last x6 hs4 j ⟨0, by omega⟩ ⟨3, by omega⟩ rfl)
  | ⟨25, hi⟩ => exact (cat_piece7 x0 x1 x2 x3 x4 x5 (extractStridedSlice S1048576x3 ![0, 0] x6 hs3) (extractStridedSlice S1048576x4 ![0, 3] x6 hs4) hc j ⟨25, hi⟩ ⟨1, by omega⟩ rfl).trans (cut_last x6 hs4 j ⟨1, by omega⟩ ⟨4, by omega⟩ rfl)
  | ⟨26, hi⟩ => exact (cat_piece7 x0 x1 x2 x3 x4 x5 (extractStridedSlice S1048576x3 ![0, 0] x6 hs3) (extractStridedSlice S1048576x4 ![0, 3] x6 hs4) hc j ⟨26, hi⟩ ⟨2, by omega⟩ rfl).trans (cut_last x6 hs4 j ⟨2, by omega⟩ ⟨5, by omega⟩ rfl)
  | ⟨27, hi⟩ => exact (cat_piece7 x0 x1 x2 x3 x4 x5 (extractStridedSlice S1048576x3 ![0, 0] x6 hs3) (extractStridedSlice S1048576x4 ![0, 3] x6 hs4) hc j ⟨27, hi⟩ ⟨3, by omega⟩ rfl).trans (cut_last x6 hs4 j ⟨3, by omega⟩ ⟨6, by omega⟩ rfl)
  | ⟨_ + 28, h⟩ => exact absurd h (Nat.not_lt.2 (Nat.le_add_left _ _))

/-- The same, at the proofs the printed program cites. -/
theorem combined_apply [Facts₀] (x0 : Arr 3) (x1 : Arr 4) (x2 : Arr 3) (x3 : Arr 4) (x4 : Arr 3) (x5 : Arr 4) (x6 : Arr 7)
    (i : Fin 28) (j : Fin 1048576) :
    transpose S28x1048576 [1, 0]
        (concatenate S1048576x28 1 [⟨S1048576x3, x0⟩, ⟨S1048576x4, x1⟩, ⟨S1048576x3, x2⟩, ⟨S1048576x4, x3⟩, ⟨S1048576x3, x4⟩, ⟨S1048576x4, x5⟩,
          ⟨S1048576x3, extractStridedSlice S1048576x3 ![0, 0] x6 Facts₀.slices_S1048576x7_S1048576x3_0_0⟩,
          ⟨S1048576x4, extractStridedSlice S1048576x4 ![0, 3] x6 Facts₀.slices_S1048576x7_S1048576x4_0_3⟩]
          Facts₀.concatenates_S1048576x3_S1048576x4_S1048576x3_S1048576x4_S1048576x3_S1048576x4_S1048576x3_S1048576x4_S1048576x28_d1)
        Facts₀.transposes_S1048576x28_S28x1048576_1_0 (ix2 i j)
      = row x0 x1 x2 x3 x4 x5 x6 j i :=
  combined_apply' x0 x1 x2 x3 x4 x5 x6 _ _ _ _ i j

end PoseLoss.Prefix

end
-- ==== Proof.KernelIdeal.Blocks.lean ====
/-
  The sample blocks the kernel reads, at the extended reals: the array the region's first window reads is the 28 x
  1048576 array whose column r is sample r's 28 numbers (the host operations before the region gather them from the
  seven argument arrays), and the block fetched at grid point t is columns 16384 t .. 16384 t + 16383 of it.
-/
import proofs.«112681_j90555090468868_2_alg».proof.Proof.KernelIdeal.Pieces
import proofs.«112681_j90555090468868_2_alg».proof.Proof.PrefixRead
import proofs.«112681_j90555090468868_2_alg».proof.Proof.Spec
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The array the sample window reads, as the host operations before the region leave it. -/
theorem V_main_v3 (c : Dev nD) : (V m c main_v3 : S28x1048576.Idx → EReal)
    = transpose S28x1048576 [1, 0] (concatenate S1048576x28 1 [⟨S1048576x3, m ((c : Thread nD τ).loc main_arg0)⟩, ⟨S1048576x4, m ((c : Thread nD τ).loc main_arg1)⟩, ⟨S1048576x3, m ((c : Thread nD τ).loc main_arg2)⟩, ⟨S1048576x4, m ((c : Thread nD τ).loc main_arg3)⟩, ⟨S1048576x3, m ((c : Thread nD τ).loc main_arg4)⟩, ⟨S1048576x4, m ((c : Thread nD τ).loc main_arg5)⟩, ⟨S1048576x3, extractStridedSlice S1048576x3 ![0, 0] (m ((c : Thread nD τ).loc main_arg6)) Facts₀.slices_S1048576x7_S1048576x3_0_0⟩, ⟨S1048576x4, extractStridedSlice S1048576x4 ![0, 3] (m ((c : Thread nD τ).loc main_arg6)) Facts₀.slices_S1048576x7_S1048576x4_0_3⟩] Facts₀.concatenates_S1048576x3_S1048576x4_S1048576x3_S1048576x4_S1048576x3_S1048576x4_S1048576x3_S1048576x4_S1048576x28_d1) Facts₀.transposes_S1048576x28_S28x1048576_1_0 := by
  show StableHlo.after hostOps0 (fun b => m (c, b)) (Proc.devRef .tc main_v3) = _
  after_results; rfl

/-- Its entry (i, r) is number i of sample r. -/
theorem V_main_v3_apply (c : Dev nD) (i : Fin 28) (r : Fin 1048576) :
    (V m c main_v3 : S28x1048576.Idx → EReal) (ix2 i r) = PoseLoss.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r i := by
  rw [V_main_v3]
  exact PoseLoss.Prefix.combined_apply' _ _ _ _ _ _ _ _ _ _ _ i r

/-- The sample window's block index at grid point t is (0, t). -/
theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- Column l of the block fetched at grid point t is sample 16384 t + l. -/
theorem iblk_apply (c : Dev nD) (t : Fin cfg0.N) (i : Fin 28) (l : Fin 16384) :
    (iblk m c 0 t : Vec Ideal S28x16384 .f32) (ix2 i l)
      = PoseLoss.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val * 16384 + l.val, by have := lt_of_lt_of_eq t.isLt (show cfg0.N = 64 from N_0); have := l.isLt; show t.val * 16384 + l.val < 1048576; omega⟩ i := by
  rw [← V_main_v3_apply]
  unfold iblk
  rw [View.read_apply]
  show V m c main_v3 _ = V m c main_v3 _
  congr 1
  funext a
  apply Fin.ext
  match a with
  | ⟨0, _⟩ => show win0_0.index t (0 : Fin 2) * 28 + 1 * i.val = i.val; rw [(idx0 t).1]; omega
  | ⟨1, _⟩ => show win0_0.index t (1 : Fin 2) * 16384 + 1 * l.val = t.val * 16384 + l.val; rw [(idx0 t).2]; omega

end Cert.KernelIdeal.Frame

end
-- ==== Proof.LaneSum.lean ====
/-
  The value one grid point stores into the accumulator.

  At a grid point the kernel holds 28 rows of 16384 lanes, lane l of row i being number i of one sample.  Lane by
  lane it divides the true orientation (rows 24 to 27) by the larger of its Euclidean norm and a small constant, takes
  for each of the three predictions the distance of its position to the true position (rows 21 to 23) plus a weight
  times the distance of its orientation to the normalized true orientation, and combines the three with weights 0.3,
  0.3 and 1: that is the loss of the lane's sample.  It then sums the 16384 lanes and adds the sum to the accumulator
  it loaded.  Every operation is pointwise on the extended reals except the sum over the lanes, which is a sum over
  the second coordinate, and the change of shape of that sum from one number to a 1×1 array.
-/
import proofs.«112681_j90555090468868_2_alg».proof.Proof.Spec
import proofs.«112681_j90555090468868_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace PoseLoss.Lane

open Idealize.ShloMosaic Idealize.ShloMosaic.ValueIdx
open Cert.KernelIdeal Cert.KernelIdeal.Gen

/-- One row of the block: 16384 lanes. -/
abbrev Row : Type := Vec Ideal S1x16384 .f32

/-- Row `i` of the 28 rows. -/
def rowOf (v0 v1 v2 v3 v4 v5 v6 v7 v8 v9 v10 v11 v12 v13 v14 v15 v16 v17 v18 v19 v20 v21 v22 v23 v24 v25 v26 v27 : Row) : Fin 28 → Row
  | ⟨0, _⟩ => v0
  | ⟨1, _⟩ => v1
  | ⟨2, _⟩ => v2
  | ⟨3, _⟩ => v3
  | ⟨4, _⟩ => v4
  | ⟨5, _⟩ => v5
  | ⟨6, _⟩ => v6
  | ⟨7, _⟩ => v7
  | ⟨8, _⟩ => v8
  | ⟨9, _⟩ => v9
  | ⟨10, _⟩ => v10
  | ⟨11, _⟩ => v11
  | ⟨12, _⟩ => v12
  | ⟨13, _⟩ => v13
  | ⟨14, _⟩ => v14
  | ⟨15, _⟩ => v15
  | ⟨16, _⟩ => v16
  | ⟨17, _⟩ => v17
  | ⟨18, _⟩ => v18
  | ⟨19, _⟩ => v19
  | ⟨20, _⟩ => v20
  | ⟨21, _⟩ => v21
  | ⟨22, _⟩ => v22
  | ⟨23, _⟩ => v23
  | ⟨24, _⟩ => v24
  | ⟨25, _⟩ => v25
  | ⟨26, _⟩ => v26
  | ⟨27, _⟩ => v27
  | ⟨_ + 28, h⟩ => absurd h (Nat.not_lt.2 (Nat.le_add_left _ _))

/-- A square root at an index is the square root of the element. -/
theorem sqrt_apply {s : Shape} {φ : FTy} (a : FVec Ideal s φ) (i : s.Idx) : sqrt a i = Ideal.sqrt (a i) := rfl

/-! ## A loaded row is used as it is -/

theorem pay2_eq (v : Row) : k0_pay2 (F := Ideal) v = v := shapeCast_self v _
theorem pay3_eq (v : Row) : k0_pay3 (F := Ideal) v = v := shapeCast_self v _
theorem pay4_eq (v : Row) : k0_pay4 (F := Ideal) v = v := shapeCast_self v _
theorem pay5_eq (v : Row) : k0_pay5 (F := Ideal) v = v := shapeCast_self v _
theorem pay6_eq (v : Row) : k0_pay6 (F := Ideal) v = v := shapeCast_self v _
theorem pay7_eq (v : Row) : k0_pay7 (F := Ideal) v = v := shapeCast_self v _
theorem pay8_eq (v : Row) : k0_pay8 (F := Ideal) v = v := shapeCast_self v _
theorem pay9_eq (v : Row) : k0_pay9 (F := Ideal) v = v := shapeCast_self v _
theorem pay10_eq (v : Row) : k0_pay10 (F := Ideal) v = v := shapeCast_self v _
theorem pay11_eq (v : Row) : k0_pay11 (F := Ideal) v = v := shapeCast_self v _
theorem pay12_eq (v : Row) : k0_pay12 (F := Ideal) v = v := shapeCast_self v _
theorem pay13_eq (v : Row) : k0_pay13 (F := Ideal) v = v := shapeCast_self v _
theorem pay14_eq (v : Row) : k0_pay14 (F := Ideal) v = v := shapeCast_self v _
theorem pay15_eq (v : Row) : k0_pay15 (F := Ideal) v = v := shapeCast_self v _
theorem pay16_eq (v : Row) : k0_pay16 (F := Ideal) v = v := shapeCast_self v _
theorem pay17_eq (v : Row) : k0_pay17 (F := Ideal) v = v := shapeCast_self v _
theorem pay18_eq (v : Row) : k0_pay18 (F := Ideal) v = v := shapeCast_self v _
theorem pay19_eq (v : Row) : k0_pay19 (F := Ideal) v = v := shapeCast_self v _
theorem pay20_eq (v : Row) : k0_pay20 (F := Ideal) v = v := shapeCast_self v _
theorem pay21_eq (v : Row) : k0_pay21 (F := Ideal) v = v := shapeCast_self v _
theorem pay22_eq (v : Row) : k0_pay22 (F := Ideal) v = v := shapeCast_self v _
theorem pay23_eq (v : Row) : k0_pay23 (F := Ideal) v = v := shapeCast_self v _
theorem pay24_eq (v : Row) : k0_pay24 (F := Ideal) v = v := shapeCast_self v _
theorem pay25_eq (v : Row) : k0_pay25 (F := Ideal) v = v := shapeCast_self v _
theorem pay26_eq (v : Row) : k0_pay26 (F := Ideal) v = v := shapeCast_self v _
theorem pay27_eq (v : Row) : k0_pay27 (F := Ideal) v = v := shapeCast_self v _
theorem pay28_eq (v : Row) : k0_pay28 (F := Ideal) v = v := shapeCast_self v _
theorem pay29_eq (v : Row) : k0_pay29 (F := Ideal) v = v := shapeCast_self v _

/-! ## The lane-wise pieces -/

/-- The divisor: the true orientation's norm, floored. -/
theorem pay30_apply (q0 q1 q2 q3 : Row) (i : S1x16384.Idx) :
    k0_pay30 (F := Ideal) q0 q1 q2 q3 i = qden (q0 i) (q1 i) (q2 i) (q3 i) := rfl

/-- The normalized true orientation, component by component. -/
theorem pay31_apply (q0 q1 q2 q3 : Row) (i : S1x16384.Idx) :
    k0_pay31 (F := Ideal) q0 q1 q2 q3 i = Ideal.div (q0 i) (qden (q0 i) (q1 i) (q2 i) (q3 i)) := rfl
theorem pay32_apply (q0 q1 q2 q3 : Row) (i : S1x16384.Idx) :
    k0_pay32 (F := Ideal) q0 q1 q2 q3 i = Ideal.div (q1 i) (qden (q0 i) (q1 i) (q2 i) (q3 i)) := rfl
theorem pay33_apply (q0 q1 q2 q3 : Row) (i : S1x16384.Idx) :
    k0_pay33 (F := Ideal) q0 q1 q2 q3 i = Ideal.div (q2 i) (qden (q0 i) (q1 i) (q2 i) (q3 i)) := rfl
theorem pay34_apply (q0 q1 q2 q3 : Row) (i : S1x16384.Idx) :
    k0_pay34 (F := Ideal) q0 q1 q2 q3 i = Ideal.div (q3 i) (qden (q0 i) (q1 i) (q2 i) (q3 i)) := rfl

/-- The first prediction's contribution. -/
theorem pay35_apply (p0 p1 p2 o0 o1 o2 o3 g0 g1 g2 q0 q1 q2 q3 : Row) (i : S1x16384.Idx) :
    k0_pay35 (F := Ideal) p0 p1 p2 o0 o1 o2 o3 g0 g1 g2 q0 q1 q2 q3 i
      = branch w150 (p0 i) (p1 i) (p2 i) (o0 i) (o1 i) (o2 i) (o3 i) (g0 i) (g1 i) (g2 i) (q0 i) (q1 i) (q2 i) (q3 i)
          (qden (q0 i) (q1 i) (q2 i) (q3 i)) := rfl

/-- The second prediction's position distance. -/
theorem pay36_apply (p0 p1 p2 g0 g1 g2 : Row) (i : S1x16384.Idx) :
    k0_pay36 (F := Ideal) p0 p1 p2 g0 g1 g2 i = dist3 (p0 i) (p1 i) (p2 i) (g0 i) (g1 i) (g2 i) := rfl

/-- The second prediction's squared orientation distance: its square root is the distance. -/
theorem sqrt_pay37_apply (o0 o1 o2 o3 q0 q1 q2 q3 : Row) (i : S1x16384.Idx) :
    Ideal.sqrt (k0_pay37 (F := Ideal) o0 o1 o2 o3 q0 q1 q2 q3 i)
      = dist4 (o0 i) (o1 i) (o2 i) (o3 i) (Ideal.div (q0 i) (qden (q0 i) (q1 i) (q2 i) (q3 i)))
          (Ideal.div (q1 i) (qden (q0 i) (q1 i) (q2 i) (q3 i))) (Ideal.div (q2 i) (qden (q0 i) (q1 i) (q2 i) (q3 i)))
          (Ideal.div (q3 i) (qden (q0 i) (q1 i) (q2 i) (q3 i))) := rfl

/-! ## The sum over the lanes, added to the accumulator -/

/-- What remains of a lane's loss once the first contribution `b1`, the second's position distance `d2` and squared
    orientation distance `s2`, and the normalized true orientation `n0 … n3` are given. -/
def tail (a14 a15 a16 a17 a18 a19 a20 g0 g1 g2 n0 n1 n2 n3 b1 d2 s2 : EReal) : EReal :=
  w03 * b1 + w03 * (d2 + w150 * Ideal.sqrt s2)
    + w1 * (dist3 a14 a15 a16 g0 g1 g2 + w500 * dist4 a17 a18 a19 a20 n0 n1 n2 n3)

/-- The index the lane sum reads at lane `l`: row 0, column `l`. -/
theorem lift_lane (h : S1x16384.Reduces [1] S1) (l : Fin 16384) : h.lift (ix1 (0 : Fin 1)) l = ix2 (0 : Fin 1) l := by
  funext a
  match a with
  | ⟨0, _⟩ => exact Fin.ext rfl
  | ⟨1, _⟩ => exact Fin.ext rfl

theorem pay38_eq (r14 r15 r16 r17 r18 r19 r20 g0 g1 g2 n0 n1 n2 n3 b1 d2 s2 : Row) (acc : Vec Ideal S1x1 .f32) :
    k0_pay38 (F := Ideal) r14 r15 r16 r17 r18 r19 r20 g0 g1 g2 n0 n1 n2 n3 b1 d2 s2 acc
      = fun _ => acc (ix2 0 0) + ∑ l : Fin 16384,
          tail (r14 (ix2 0 l)) (r15 (ix2 0 l)) (r16 (ix2 0 l)) (r17 (ix2 0 l)) (r18 (ix2 0 l)) (r19 (ix2 0 l)) (r20 (ix2 0 l))
            (g0 (ix2 0 l)) (g1 (ix2 0 l)) (g2 (ix2 0 l)) (n0 (ix2 0 l)) (n1 (ix2 0 l)) (n2 (ix2 0 l)) (n3 (ix2 0 l))
            (b1 (ix2 0 l)) (d2 (ix2 0 l)) (s2 (ix2 0 l)) := by
  funext j
  obtain ⟨a, b, rfl⟩ : ∃ (a : Fin 1) (b : Fin 1), j = ix2 a b := ⟨j 0, j 1, eq_ix2 j⟩
  obtain rfl : a = 0 := Subsingleton.elim _ _
  obtain rfl : b = 0 := Subsingleton.elim _ _
  unfold k0_pay38
  dsimp only
  rw [shapeCast_self, addf_apply]
  refine congrArg (acc (ix2 0 0) + ·) ?_
  refine (shapeCast_a_1a_apply _ _ 0 0).trans ?_
  refine (Ideal.multiReduction_add_single _ _ _ _ _ (ix1 0)).trans ?_
  refine Finset.sum_congr rfl fun l _ => ?_
  exact congrArg _ (lift_lane _ l)

/-- **The stored value**: the accumulator plus the sum over the lanes of the lane's sample's loss. -/
theorem stored_acc (v0 v1 v2 v3 v4 v5 v6 v7 v8 v9 v10 v11 v12 v13 v14 v15 v16 v17 v18 v19 v20 v21 v22 v23 v24 v25 v26 v27 : Row) (acc : Vec Ideal S1x1 .f32) :
    k0_pay38 (F := Ideal) (k0_pay16 v14) (k0_pay17 v15) (k0_pay18 v16) (k0_pay19 v17) (k0_pay20 v18) (k0_pay21 v19) (k0_pay22 v20) (k0_pay23 v21) (k0_pay24 v22) (k0_pay25 v23)
        (k0_pay31 (k0_pay26 v24) (k0_pay27 v25) (k0_pay28 v26) (k0_pay29 v27)) (k0_pay32 (k0_pay26 v24) (k0_pay27 v25) (k0_pay28 v26) (k0_pay29 v27))
        (k0_pay33 (k0_pay26 v24) (k0_pay27 v25) (k0_pay28 v26) (k0_pay29 v27)) (k0_pay34 (k0_pay26 v24) (k0_pay27 v25) (k0_pay28 v26) (k0_pay29 v27))
        (k0_pay35 (k0_pay2 v0) (k0_pay3 v1) (k0_pay4 v2) (k0_pay5 v3) (k0_pay6 v4) (k0_pay7 v5) (k0_pay8 v6) (k0_pay23 v21) (k0_pay24 v22) (k0_pay25 v23) (k0_pay26 v24) (k0_pay27 v25) (k0_pay28 v26) (k0_pay29 v27))
        (k0_pay36 (k0_pay9 v7) (k0_pay10 v8) (k0_pay11 v9) (k0_pay23 v21) (k0_pay24 v22) (k0_pay25 v23))
        (k0_pay37 (k0_pay12 v10) (k0_pay13 v11) (k0_pay14 v12) (k0_pay15 v13) (k0_pay26 v24) (k0_pay27 v25) (k0_pay28 v26) (k0_pay29 v27))
        acc
      = fun _ => acc (ix2 0 0) + ∑ l : Fin 16384, sample (fun i => rowOf v0 v1 v2 v3 v4 v5 v6 v7 v8 v9 v10 v11 v12 v13 v14 v15 v16 v17 v18 v19 v20 v21 v22 v23 v24 v25 v26 v27 i (ix2 0 l)) := by
  simp only [pay2_eq, pay3_eq, pay4_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq]
  rw [pay38_eq]
  funext _
  refine congrArg (acc (ix2 0 0) + ·) ?_
  refine Finset.sum_congr rfl fun l _ => ?_
  rw [pay31_apply, pay32_apply, pay33_apply, pay34_apply, pay35_apply, pay36_apply]
  unfold tail
  rw [sqrt_pay37_apply]
  rfl

end PoseLoss.Lane

end
-- ==== Proof.KernelIdeal.Total.lean ====
/-
  The kernel's result at the extended reals.  At every grid point the value stored into the running-sum scratch is
  the running sum loaded plus the sum, over the block's 16384 columns, of the sample loss; so after the last point of a
  half of the grid the scratch holds the sum over that half's 32 blocks, which is what that point writes to the
  output array; the host operations after the region add the two halves' entries and divide by the number of samples.
-/
import proofs.«112681_j90555090468868_2_alg».proof.Proof.KernelIdeal.Blocks
import proofs.«112681_j90555090468868_2_alg».proof.Proof.LaneSum

set_option maxRecDepth 16384

noncomputable section

open scoped BigOperators

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- Every index of a one-entry 1 x 1 block is the same. -/
instance sub11 : Subsingleton S1x1.Idx := ⟨fun a b => funext fun d => match d with
  | ⟨0, _⟩ => Subsingleton.elim (α := Fin 1) _ _
  | ⟨1, _⟩ => Subsingleton.elim (α := Fin 1) _ _⟩

/-- The sum over a block's 16384 columns of the sample loss. -/
def blockSum (X : Vec Ideal S28x16384 .f32) : EReal := ∑ l : Fin 16384, PoseLoss.sample (fun i => X (ix2 i l))

/-- Row k of a block, loaded as a 1 x 16384 vector, at column l is the block's entry (k, l). -/
theorem ld_row (X : Vec Ideal S28x16384 .f32) (k : ℕ) (hk : k < 28)
    (inb : ∀ a, (![k, 0] : Fin 2 → Nat) a + S1x16384.size a ≤ S28x16384.size a) (l : Fin 16384) :
    View.ld X (Rect.unit (s := S28x16384) ![k, 0] S1x16384.size inb) (ix2 0 l) = X (ix2 ⟨k, hk⟩ l) := by
  show X _ = X _
  congr 1
  funext a
  apply Fin.ext
  match a with
  | ⟨0, _⟩ => show k + 1 * 0 = k; omega
  | ⟨1, _⟩ => show 0 + 1 * l.val = l.val; omega

set_option maxRecDepth 1000000 in
/-- What the body stores into the running sum, over the block's loaded rows. -/
theorem step_rows (X : Vec Ideal S28x16384 .f32) (a : Vec Ideal S1x1 .f32) :
    step (F := Ideal) X a = fun _ => a (ix2 0 0) + ∑ l : Fin 16384, PoseLoss.sample (fun i => PoseLoss.Lane.rowOf (View.ld X (Rect.unit (s := S28x16384) ![0, 0] S1x16384.size Facts₀.inb_S28x16384_S1x16384_0_0)) (View.ld X (Rect.unit (s := S28x16384) ![1, 0] S1x16384.size Facts₀.inb_S28x16384_S1x16384_1_0)) (View.ld X (Rect.unit (s := S28x16384) ![2, 0] S1x16384.size Facts₀.inb_S28x16384_S1x16384_2_0)) (View.ld X (Rect.unit (s := S28x16384) ![3, 0] S1x16384.size Facts₀.inb_S28x16384_S1x16384_3_0)) (View.ld X (Rect.unit (s := S28x16384) ![4, 0] S1x16384.size Facts₀.inb_S28x16384_S1x16384_4_0)) (View.ld X (Rect.unit (s := S28x16384) ![5, 0] S1x16384.size Facts₀.inb_S28x16384_S1x16384_5_0)) (View.ld X (Rect.unit (s := S28x16384) ![6, 0] S1x16384.size Facts₀.inb_S28x16384_S1x16384_6_0)) (View.ld X (Rect.unit (s := S28x16384) ![7, 0] S1x16384.size Facts₀.inb_S28x16384_S1x16384_7_0)) (View.ld X (Rect.unit (s := S28x16384) ![8, 0] S1x16384.size Facts₀.inb_S28x16384_S1x16384_8_0)) (View.ld X (Rect.unit (s := S28x16384) ![9, 0] S1x16384.size Facts₀.inb_S28x16384_S1x16384_9_0)) (View.ld X (Rect.unit (s := S28x16384) ![10, 0] S1x16384.size Facts₀.inb_S28x16384_S1x16384_10_0)) (View.ld X (Rect.unit (s := S28x16384) ![11, 0] S1x16384.size Facts₀.inb_S28x16384_S1x16384_11_0)) (View.ld X (Rect.unit (s := S28x16384) ![12, 0] S1x16384.size Facts₀.inb_S28x16384_S1x16384_12_0)) (View.ld X (Rect.unit (s := S28x16384) ![13, 0] S1x16384.size Facts₀.inb_S28x16384_S1x16384_13_0)) (View.ld X (Rect.unit (s := S28x16384) ![14, 0] S1x16384.size Facts₀.inb_S28x16384_S1x16384_14_0)) (View.ld X (Rect.unit (s := S28x16384) ![15, 0] S1x16384.size Facts₀.inb_S28x16384_S1x16384_15_0)) (View.ld X (Rect.unit (s := S28x16384) ![16, 0] S1x16384.size Facts₀.inb_S28x16384_S1x16384_16_0)) (View.ld X (Rect.unit (s := S28x16384) ![17, 0] S1x16384.size Facts₀.inb_S28x16384_S1x16384_17_0)) (View.ld X (Rect.unit (s := S28x16384) ![18, 0] S1x16384.size Facts₀.inb_S28x16384_S1x16384_18_0)) (View.ld X (Rect.unit (s := S28x16384) ![19, 0] S1x16384.size Facts₀.inb_S28x16384_S1x16384_19_0)) (View.ld X (Rect.unit (s := S28x16384) ![20, 0] S1x16384.size Facts₀.inb_S28x16384_S1x16384_20_0)) (View.ld X (Rect.unit (s := S28x16384) ![21, 0] S1x16384.size Facts₀.inb_S28x16384_S1x16384_21_0)) (View.ld X (Rect.unit (s := S28x16384) ![22, 0] S1x16384.size Facts₀.inb_S28x16384_S1x16384_22_0)) (View.ld X (Rect.unit (s := S28x16384) ![23, 0] S1x16384.size Facts₀.inb_S28x16384_S1x16384_23_0)) (View.ld X (Rect.unit (s := S28x16384) ![24, 0] S1x16384.size Facts₀.inb_S28x16384_S1x16384_24_0)) (View.ld X (Rect.unit (s := S28x16384) ![25, 0] S1x16384.size Facts₀.inb_S28x16384_S1x16384_25_0)) (View.ld X (Rect.unit (s := S28x16384) ![26, 0] S1x16384.size Facts₀.inb_S28x16384_S1x16384_26_0)) (View.ld X (Rect.unit (s := S28x16384) ![27, 0] S1x16384.size Facts₀.inb_S28x16384_S1x16384_27_0)) i (ix2 0 l)) := by
  unfold step
  exact PoseLoss.Lane.stored_acc (View.ld X (Rect.unit (s := S28x16384) ![0, 0] S1x16384.size Facts₀.inb_S28x16384_S1x16384_0_0)) (View.ld X (Rect.unit (s := S28x16384) ![1, 0] S1x16384.size Facts₀.inb_S28x16384_S1x16384_1_0)) (View.ld X (Rect.unit (s := S28x16384) ![2, 0] S1x16384.size Facts₀.inb_S28x16384_S1x16384_2_0)) (View.ld X (Rect.unit (s := S28x16384) ![3, 0] S1x16384.size Facts₀.inb_S28x16384_S1x16384_3_0)) (View.ld X (Rect.unit (s := S28x16384) ![4, 0] S1x16384.size Facts₀.inb_S28x16384_S1x16384_4_0)) (View.ld X (Rect.unit (s := S28x16384) ![5, 0] S1x16384.size Facts₀.inb_S28x16384_S1x16384_5_0)) (View.ld X (Rect.unit (s := S28x16384) ![6, 0] S1x16384.size Facts₀.inb_S28x16384_S1x16384_6_0)) (View.ld X (Rect.unit (s := S28x16384) ![7, 0] S1x16384.size Facts₀.inb_S28x16384_S1x16384_7_0)) (View.ld X (Rect.unit (s := S28x16384) ![8, 0] S1x16384.size Facts₀.inb_S28x16384_S1x16384_8_0)) (View.ld X (Rect.unit (s := S28x16384) ![9, 0] S1x16384.size Facts₀.inb_S28x16384_S1x16384_9_0)) (View.ld X (Rect.unit (s := S28x16384) ![10, 0] S1x16384.size Facts₀.inb_S28x16384_S1x16384_10_0)) (View.ld X (Rect.unit (s := S28x16384) ![11, 0] S1x16384.size Facts₀.inb_S28x16384_S1x16384_11_0)) (View.ld X (Rect.unit (s := S28x16384) ![12, 0] S1x16384.size Facts₀.inb_S28x16384_S1x16384_12_0)) (View.ld X (Rect.unit (s := S28x16384) ![13, 0] S1x16384.size Facts₀.inb_S28x16384_S1x16384_13_0)) (View.ld X (Rect.unit (s := S28x16384) ![14, 0] S1x16384.size Facts₀.inb_S28x16384_S1x16384_14_0)) (View.ld X (Rect.unit (s := S28x16384) ![15, 0] S1x16384.size Facts₀.inb_S28x16384_S1x16384_15_0)) (View.ld X (Rect.unit (s := S28x16384) ![16, 0] S1x16384.size Facts₀.inb_S28x16384_S1x16384_16_0)) (View.ld X (Rect.unit (s := S28x16384) ![17, 0] S1x16384.size Facts₀.inb_S28x16384_S1x16384_17_0)) (View.ld X (Rect.unit (s := S28x16384) ![18, 0] S1x16384.size Facts₀.inb_S28x16384_S1x16384_18_0)) (View.ld X (Rect.unit (s := S28x16384) ![19, 0] S1x16384.size Facts₀.inb_S28x16384_S1x16384_19_0)) (View.ld X (Rect.unit (s := S28x16384) ![20, 0] S1x16384.size Facts₀.inb_S28x16384_S1x16384_20_0)) (View.ld X (Rect.unit (s := S28x16384) ![21, 0] S1x16384.size Facts₀.inb_S28x16384_S1x16384_21_0)) (View.ld X (Rect.unit (s := S28x16384) ![22, 0] S1x16384.size Facts₀.inb_S28x16384_S1x16384_22_0)) (View.ld X (Rect.unit (s := S28x16384) ![23, 0] S1x16384.size Facts₀.inb_S28x16384_S1x16384_23_0)) (View.ld X (Rect.unit (s := S28x16384) ![24, 0] S1x16384.size Facts₀.inb_S28x16384_S1x16384_24_0)) (View.ld X (Rect.unit (s := S28x16384) ![25, 0] S1x16384.size Facts₀.inb_S28x16384_S1x16384_25_0)) (View.ld X (Rect.unit (s := S28x16384) ![26, 0] S1x16384.size Facts₀.inb_S28x16384_S1x16384_26_0)) (View.ld X (Rect.unit (s := S28x16384) ![27, 0] S1x16384.size Facts₀.inb_S28x16384_S1x16384_27_0)) a

/-- What the body stores into the running sum, at the extended reals: the running sum it loaded plus the block's sum. -/
theorem step_ideal (X : Vec Ideal S28x16384 .f32) (a : Vec Ideal S1x1 .f32) :
    step (F := Ideal) X a = fun _ => a (ix2 0 0) + blockSum X := by
  rw [step_rows]
  funext _
  refine congrArg (a (ix2 0 0) + ·) ?_
  unfold blockSum
  refine Finset.sum_congr rfl fun l _ => ?_
  refine congrArg PoseLoss.sample (funext fun i => ?_)
  match i with
  | ⟨0, _⟩ => exact ld_row X 0 (by omega) _ l
  | ⟨1, _⟩ => exact ld_row X 1 (by omega) _ l
  | ⟨2, _⟩ => exact ld_row X 2 (by omega) _ l
  | ⟨3, _⟩ => exact ld_row X 3 (by omega) _ l
  | ⟨4, _⟩ => exact ld_row X 4 (by omega) _ l
  | ⟨5, _⟩ => exact ld_row X 5 (by omega) _ l
  | ⟨6, _⟩ => exact ld_row X 6 (by omega) _ l
  | ⟨7, _⟩ => exact ld_row X 7 (by omega) _ l
  | ⟨8, _⟩ => exact ld_row X 8 (by omega) _ l
  | ⟨9, _⟩ => exact ld_row X 9 (by omega) _ l
  | ⟨10, _⟩ => exact ld_row X 10 (by omega) _ l
  | ⟨11, _⟩ => exact ld_row X 11 (by omega) _ l
  | ⟨12, _⟩ => exact ld_row X 12 (by omega) _ l
  | ⟨13, _⟩ => exact ld_row X 13 (by omega) _ l
  | ⟨14, _⟩ => exact ld_row X 14 (by omega) _ l
  | ⟨15, _⟩ => exact ld_row X 15 (by omega) _ l
  | ⟨16, _⟩ => exact ld_row X 16 (by omega) _ l
  | ⟨17, _⟩ => exact ld_row X 17 (by omega) _ l
  | ⟨18, _⟩ => exact ld_row X 18 (by omega) _ l
  | ⟨19, _⟩ => exact ld_row X 19 (by omega) _ l
  | ⟨20, _⟩ => exact ld_row X 20 (by omega) _ l
  | ⟨21, _⟩ => exact ld_row X 21 (by omega) _ l
  | ⟨22, _⟩ => exact ld_row X 22 (by omega) _ l
  | ⟨23, _⟩ => exact ld_row X 23 (by omega) _ l
  | ⟨24, _⟩ => exact ld_row X 24 (by omega) _ l
  | ⟨25, _⟩ => exact ld_row X 25 (by omega) _ l
  | ⟨26, _⟩ => exact ld_row X 26 (by omega) _ l
  | ⟨27, _⟩ => exact ld_row X 27 (by omega) _ l
  | ⟨_ + 28, h⟩ => exact absurd h (Nat.not_lt.2 (Nat.le_add_left _ _))

/-- The zero the reset stores is the extended real 0. -/
theorem zero11_apply (y : S1x1.Idx) : (zero11 (F := Ideal)) y = 0 := by
  unfold zero11 k0_pay1
  rw [shapeCast_self]
  exact Ideal.ofBits_zero_f32

/-- The sum of the block fetched at position n (0 past the grid). -/
def lane (c : Dev nD) (n : ℕ) : EReal := if h : n < cfg0.N then blockSum (iblk m c 0 ⟨n, h⟩) else 0

/-- The running sum after position n, as a number: restarted at the multiples of 32. -/
def runSum (c : Dev nD) : ℕ → EReal
  | 0 => lane m c 0
  | n + 1 => if (n + 1) % 32 = 0 then lane m c (n + 1) else runSum c n + lane m c (n + 1)

theorem runSum_reset (c : Dev nD) (n : ℕ) (h : (n + 1) % 32 = 0) : runSum m c (n + 1) = lane m c (n + 1) := by
  unfold runSum; exact if_pos h

theorem runSum_add (c : Dev nD) (n : ℕ) (h : ¬(n + 1) % 32 = 0) : runSum m c (n + 1) = runSum m c n + lane m c (n + 1) := by
  conv_lhs => unfold runSum
  exact if_neg h

theorem acc_eq (c : Dev nD) : ∀ (n : ℕ) (h : n < cfg0.N), acc m c n h = fun _ => runSum m c n
  | 0, h => by
    unfold acc runSum lane
    rw [step_ideal, dif_pos h, zero11_apply, zero_add]
  | n + 1, h => by
    by_cases h0 : (n + 1) % 32 = 0
    · rw [runSum_reset m c n h0]
      unfold acc lane
      rw [if_pos h0, step_ideal, dif_pos h, zero11_apply, zero_add]
    · rw [runSum_add m c n h0]
      unfold acc lane
      rw [if_neg h0, step_ideal, dif_pos h, acc_eq c n]

theorem runSum_half (c : Dev nD) (q : ℕ) : ∀ j, j < 32 → runSum m c (32 * q + j) = ∑ k ∈ Finset.range (j + 1), lane m c (32 * q + k)
  | 0, _ => by
    rw [Finset.sum_range_one]
    cases q with
    | zero => rfl
    | succ q =>
      have e : 32 * (q + 1) + 0 = (32 * q + 31) + 1 := by omega
      rw [e, runSum_reset m c _ (by omega)]
  | j + 1, hj => by
    have e : 32 * q + (j + 1) = (32 * q + j) + 1 := by omega
    rw [Finset.sum_range_succ, e, runSum_add m c _ (by omega), runSum_half c q j (by omega)]

/-! ## The array of the two partial sums -/

/-- The output window's block index at grid point t is (t / 32, 0, 0). -/
theorem idx1 : ∀ t : Fin cfg0.N, win0_1.index t (0 : Fin 3) = t.val / 32 ∧ win0_1.index t (1 : Fin 3) = 0 ∧ win0_1.index t (2 : Fin 3) = 0 :=
  (by decide +kernel : ∀ t : Fin grid0.N, win0_1.index t (0 : Fin 3) = t.val / 32 ∧ win0_1.index t (1 : Fin 3) = 0 ∧ win0_1.index t (2 : Fin 3) = 0)

/-- What the output array ends holding: entry (h, 0, 0) is the sum of the 32 blocks of half h. -/
def halves (c : Dev nD) : S2x1x1.Idx → EReal := fun y => ∑ k ∈ Finset.range 32, lane m c (32 * (y 0).val + k)

theorem pay39_apply (X : Vec Ideal S1x1 .f32) (y : S1x1x1.Idx) : k0_pay39 (F := Ideal) X y = X (ix2 0 0) := by
  unfold k0_pay39 shapeCast
  exact congrArg X (Subsingleton.elim _ _)

/-- What a half's last point writes back is that half's entry. -/
theorem flushed_eq (c : Dev nD) (t : Fin cfg0.N) (hf : (cfg0.win 1).flush t = true) :
    (dats m 0 c).flushed 1 t = ((cfg0.win 1).blk t).view.read (Elt Ideal) (halves m c) := by
  have h31 : t.val % 32 = 31 := (flush0_1 t).mp hf
  have hN : t.val < 64 := lt_of_lt_of_eq t.isLt (show cfg0.N = 64 from N_0)
  show (cfg0.win 1).cut (grid0.coords t) ((dats m 0 c).after 1 t) = _
  rw [after0_1, outsAt_fst m c t h31, acc_eq]
  funext y
  show k0_pay39 (F := Ideal) (fun _ => runSum m c t.val) y = halves m c (((cfg0.win 1).blk t).view.emb y)
  rw [pay39_apply]
  unfold halves
  have e0 : ((((cfg0.win 1).blk t).view.emb y) 0).val = t.val / 32 := by
    show win0_1.index t (0 : Fin 3) * 1 + 1 * (y 0).val = t.val / 32
    have hy : (y 0).val < 1 := (y 0).isLt
    rw [(idx1 t).1]; omega
  rw [e0]
  have ht : t.val = 32 * (t.val / 32) + 31 := by omega
  conv_lhs => rw [ht]
  exact runSum_half m c (t.val / 32) 31 (by omega)

/-- An index of the output array is in point t's block iff each coordinate is in the block's range. -/
theorem mem_blk1 (t : Fin cfg0.N) (i : S2x1x1.Idx) :
    i ∈ ((cfg0.win 1).blk t).view.set ↔ ∀ a : Fin 3, win0_1.index t a * S1x1x1.size a ≤ (i a).val ∧ (i a).val < win0_1.index t a * S1x1x1.size a + S1x1x1.size a := by
  show i ∈ ((View.whole main_v4).slice (win0_1.rect t)).set ↔ _
  rw [View.set_slice_whole, Rect.mem_set_unit]
  exact Iff.rfl

theorem final_halves (c : Dev nD) : (dats m 0 c).arrAt 1 cfg0.N = halves m c :=
  (dats m 0 c).arrAt_eq_of_cover 1 (halves m c) (flushed_eq m c) fun i => by
    have hi0 : ((i : S2x1x1.Idx) 0).val < 2 := ((i : S2x1x1.Idx) 0).isLt
    have hi1 : ((i : S2x1x1.Idx) 1).val < 1 := ((i : S2x1x1.Idx) 1).isLt
    have hi2 : ((i : S2x1x1.Idx) 2).val < 1 := ((i : S2x1x1.Idx) 2).isLt
    have hN : cfg0.N = 64 := N_0
    have ht : 32 * ((i : S2x1x1.Idx) 0).val + 31 < cfg0.N := by omega
    refine ⟨⟨32 * ((i : S2x1x1.Idx) 0).val + 31, ht⟩, (flush0_1 _).mpr (by show (32 * ((i : S2x1x1.Idx) 0).val + 31) % 32 = 31; omega), ?_⟩
    rw [mem_blk1]
    obtain ⟨e0, e1, e2⟩ := idx1 ⟨32 * ((i : S2x1x1.Idx) 0).val + 31, ht⟩
    intro a
    match a with
    | ⟨0, _⟩ => show win0_1.index _ (0 : Fin 3) * 1 ≤ ((i : S2x1x1.Idx) 0).val ∧ ((i : S2x1x1.Idx) 0).val < win0_1.index _ (0 : Fin 3) * 1 + 1; rw [e0]; dsimp only; omega
    | ⟨1, _⟩ => show win0_1.index _ (1 : Fin 3) * 1 ≤ ((i : S2x1x1.Idx) 1).val ∧ ((i : S2x1x1.Idx) 1).val < win0_1.index _ (1 : Fin 3) * 1 + 1; rw [e1]; omega
    | ⟨2, _⟩ => show win0_1.index _ (2 : Fin 3) * 1 ≤ ((i : S2x1x1.Idx) 2).val ∧ ((i : S2x1x1.Idx) 2).val < win0_1.index _ (2 : Fin 3) * 1 + 1; rw [e2]; omega

/-! ## The result -/

/-- The result buffer as the host operations after the region leave it: the two halves' entries summed from zero,
    divided by the number of samples. -/
theorem tail_v6 (c : Dev nD) : Pipeline.afterTail₀ cfgs (dats m) 0 (V0 m) [hostOps1] c main_v6
    = Host.divf (Host.reduceAdd ((dats m 0 c).arrAt 1 cfg0.N) (constant (F := Ideal) S_ .f32 0x00000000#32) Facts₀.reducesTo_S2x1x1_S_d0_1_2 Facts₀.h_S_) (constant (F := Ideal) S_ .f32 0x49800000#32) := by
  unfold Pipeline.afterTail₀
  show StableHlo.after hostOps1 _ (Proc.devRef .tc main_v6) = _
  after_results
  rw [Pipeline.withArrays_arr spec0 launch0.win.arr_inj c _ _ 1]

end Cert.KernelIdeal.Frame

end
-- ==== Proof.SumHalves.lean ====
/-
  A sum over the indices of a 2×1×1 array is the sum of its two entries.
-/
import Idealize.ShloMosaic.Lib.ValueIdx

noncomputable section

open scoped BigOperators

namespace PoseLoss

open Idealize.ShloMosaic Idealize.ShloMosaic.ValueIdx

/-- The indices of a 2×1×1 array are its first coordinates: the other two are 0. -/
def idxEquiv211 : Fin 2 ≃ (⟨3, ![2, 1, 1]⟩ : Shape).Idx where
  toFun q := ix3 q (0 : Fin 1) (0 : Fin 1)
  invFun y := y 0
  left_inv _ := rfl
  right_inv y := by
    refine (congrArg₂ (ix3 (y 0)) ?_ ?_).trans (eq_ix3 y).symm
    · exact Subsingleton.elim _ _
    · exact Subsingleton.elim _ _

/-- So a sum over them is the sum over the first coordinate. -/
theorem sum_idx211 (g : (⟨3, ![2, 1, 1]⟩ : Shape).Idx → EReal) : ∑ y, g y = ∑ q : Fin 2, g (ix3 q 0 0) :=
  (Equiv.sum_comp idxEquiv211 g).symm

end PoseLoss

end
-- ==== Proof.GridSum.lean ====
/-
  The samples in blocks.

  The 1048576 samples are visited as 2 × 32 blocks of 16384 consecutive samples: block `c * 32 + s` holds the samples
  `(c * 32 + s) * 16384 + l`, `l` below 16384.  A sum over all samples is therefore the sum over `c`, over `s` and over
  `l` of the same terms: a sum over `m * n` consecutive indices is the sum over `m` blocks of the sums over a block's
  `n` indices, used twice.
-/
import Mathlib.Algebra.BigOperators.Fin
import Mathlib.Logic.Equiv.Fin.Basic

open scoped BigOperators

namespace PoseLoss.Grid

/-- A sum over `m * n` consecutive indices is the sum over `m` blocks of the sums over the `n` indices of a block. -/
theorem sum_blocks_of {M : Type*} [AddCommMonoid M] (m n : Nat) (f : Fin (m * n) → M) :
    ∑ r : Fin (m * n), f r
      = ∑ b : Fin m, ∑ l : Fin n, f ⟨b.val * n + l.val, by
          have hb := b.isLt; have hl := l.isLt
          calc b.val * n + l.val < b.val * n + n := by omega
            _ = (b.val + 1) * n := (Nat.succ_mul _ _).symm
            _ ≤ m * n := Nat.mul_le_mul_right n hb⟩ := by
  rw [← (finProdFinEquiv (m := m) (n := n)).sum_comp, Fintype.sum_prod_type]
  refine Finset.sum_congr rfl fun b _ => Finset.sum_congr rfl fun l _ => congrArg f (Fin.ext ?_)
  show l.val + n * b.val = b.val * n + l.val
  rw [Nat.mul_comm, Nat.add_comm]

/-- The 1048576 samples are 2 × 32 blocks of 16384: block `c * 32 + s` holds samples `(c * 32 + s) * 16384 + l`. -/
theorem sum_samples {M : Type*} [AddCommMonoid M] (f : Fin 1048576 → M) :
    ∑ c : Fin 2, ∑ s : Fin 32, ∑ l : Fin 16384, f ⟨(c.val * 32 + s.val) * 16384 + l.val, by
        have := c.isLt; have := s.isLt; have := l.isLt; omega⟩ = ∑ r : Fin 1048576, f r := by
  have h1 := sum_blocks_of 64 16384 (f : Fin (64 * 16384) → M)
  have h2 := sum_blocks_of 2 32 (fun b : Fin (2 * 32) => ∑ l : Fin 16384, f ⟨b.val * 16384 + l.val, by
      have := b.isLt; have := l.isLt; omega⟩)
  exact (h2.symm.trans h1.symm)

end PoseLoss.Grid
-- ==== Proof.KernelIdeal.Result.lean ====
/-
  The idealized kernel's run, read: the two halves' entries of the output array add up to the sum of all samples'
  losses (each block's sum is the sum over its 16384 samples, and the 2 x 32 x 16384 positions enumerate the samples),
  so the result buffer ends holding the mean sample loss of the argument arrays.
-/
import proofs.«112681_j90555090468868_2_alg».proof.Proof.KernelIdeal.Total
import proofs.«112681_j90555090468868_2_alg».proof.Proof.SumHalves
import proofs.«112681_j90555090468868_2_alg».proof.Proof.GridSum

set_option maxRecDepth 16384

noncomputable section

open scoped BigOperators

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The sum of the block fetched at position n is the sum of the sample losses of samples 16384 n .. 16384 n + 16383. -/
theorem lane_eq (c : Dev nD) (n : ℕ) (h : n < cfg0.N) :
    lane m c n = ∑ l : Fin 16384, PoseLoss.sample (PoseLoss.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨n * 16384 + l.val, by have := lt_of_lt_of_eq h (show cfg0.N = 64 from N_0); have := l.isLt; show n * 16384 + l.val < 1048576; omega⟩) := by
  unfold lane
  rw [dif_pos h]
  unfold blockSum
  refine Finset.sum_congr rfl fun l _ => ?_
  exact congrArg PoseLoss.sample (funext fun i => iblk_apply m c ⟨n, h⟩ i l)

/-- The two halves' entries add up to the sum of all samples' losses. -/
theorem halves_sum (c : Dev nD) :
    ∑ y : S2x1x1.Idx, halves m c y = ∑ r : Fin PoseLoss.B, PoseLoss.sample (PoseLoss.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r) := by
  rw [PoseLoss.sum_idx211, ← PoseLoss.Grid.sum_samples (fun r => PoseLoss.sample (PoseLoss.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r))]
  refine Finset.sum_congr rfl fun q _ => ?_
  unfold halves
  rw [Finset.sum_range]
  refine Finset.sum_congr rfl fun k _ => ?_
  show lane m c (32 * q.val + k.val) = _
  rw [lane_eq m c _ (by have := q.isLt; have := k.isLt; have : cfg0.N = 64 := N_0; omega)]
  refine Finset.sum_congr rfl fun l _ => ?_
  refine congrArg (fun r => PoseLoss.sample (PoseLoss.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r)) (Fin.ext ?_)
  show (32 * q.val + k.val) * 16384 + l.val = (q.val * 32 + k.val) * 16384 + l.val
  omega

/-- The result buffer ends holding the mean sample loss. -/
theorem result_v6 (c : Dev nD) : Pipeline.afterTail₀ cfgs (dats m) 0 (V0 m) [hostOps1] c main_v6
    = fun _ => PoseLoss.total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [tail_v6, final_halves]
  funext y
  show FloatOps.hostDivf (Host.reduceAdd (halves m c) (constant (F := Ideal) S_ .f32 0x00000000#32) Facts₀.reducesTo_S2x1x1_S_d0_1_2 Facts₀.h_S_ y) (FloatOps.ofBits (F := Ideal) .f32 0x49800000#32) = _
  have hs : Host.reduceAdd (halves m c) (constant (F := Ideal) S_ .f32 0x00000000#32) Facts₀.reducesTo_S2x1x1_S_d0_1_2 Facts₀.h_S_ y
      = 0 + ∑ i : S2x1x1.Idx, halves m c i := by
    simp only [Host.reduceAdd, Ideal.hostReduceAdd_def]
    rw [Ideal.hostReduceAdd_total Facts₀.reducesTo_S2x1x1_S_d0_1_2 (fun b => b.elim0) (halves m c) _ y]
    congr 1
    exact Ideal.ofBits_zero_f32
  rw [hs, zero_add, halves_sum]
  rfl

/-- The run of the idealized kernel, read: the result buffer at the mean sample loss, the seven argument arrays as
    launched. -/
theorem run_value : θ_run defs (onTc (τ := τ) (main (F := Ideal))) ⟨m, fun _ => 0, ρ⟩ (fun r => ∀ c : Dev nD,
      r.2.mem ((c.tc : Thread nD τ).loc main_v6) = (fun _ => PoseLoss.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v6 (Pipeline.mem_restRefs_of main_v6 (by decide) (by decide))).trans (result_v6 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c)⟩) (run_main m ρ)

end Cert.KernelIdeal.Frame

end
-- ==== Proof.RefTotal.lean ====
/-
  The reference program's result, read element by element, is the mean pose loss of the specification.

  The reference computes, for every sample, the three predictions' contributions from the seven argument arrays
  (slices of the true pose, the floored Euclidean norm of the true orientation, the quotient, the differences, the
  sums of squares over the 3 or 4 coordinates, the square roots, the weighted combination), then sums the
  samples' values and divides by their number.  Reading each operation at an index and writing the short sums
  over 3 or 4 coordinates out term by term gives exactly the specification's per-sample expression at the row
  gathered from the arrays; the sum over the rank-one index set of samples is the sum over the sample numbers.
-/
import proofs.«112681_j90555090468868_2_alg».proof.Proof.Spec
import proofs.«112681_j90555090468868_2_alg».proof.Proof.Gen.ReferenceIdeal.Read
import Idealize.ShloMosaic.Lib.ValueIdx
import Idealize.ShloMosaic.PureOps.Ideal.Laws

noncomputable section

open scoped BigOperators

namespace PoseLoss.Ref

open Idealize.ShloMosaic Idealize.ShloMosaic.ValueIdx Cert.ReferenceIdeal Cert.ReferenceIdeal.Read

/-! ## Sums over a rank-one index set -/

/-- A rank-one index set is its coordinate's range … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The index maps of the layout operations and of the short sums, by coordinates -/

section Idx
variable (r : Fin 1048576)

/-- The position slice reads the true pose's row at the same coordinate. -/
theorem idx_v0 (k : Fin 3) : idx_main_v0 (ix2 r k) = ix2 r ⟨k.val, by have := k.isLt; omega⟩ := by
  funext a; match a with | ⟨0, _⟩ => rfl | ⟨1, _⟩ => rfl
/-- The orientation slice reads the true pose's row three places further. -/
theorem idx_v1 (k : Fin 4) : idx_main_v1 (ix2 r k) = ix2 r ⟨3 + k.val, by have := k.isLt; omega⟩ := by
  funext a; match a with | ⟨0, _⟩ => rfl | ⟨1, _⟩ => rfl
theorem idx_v3 (k : Fin 4) : idx_main_v3 (ix1 r) k = ix2 r k := by
  funext a; match a with | ⟨0, _⟩ => rfl | ⟨1, _⟩ => rfl
theorem idx_v7 (z : Fin 1) : idx_main_v7 (ix2 r z) = ix1 r := by
  funext a; match a with | ⟨0, _⟩ => rfl
theorem idx_v8 (k : Fin 4) : idx_main_v8 (ix2 r k) = ix2 r (0 : Fin 1) := by
  funext a; match a with | ⟨0, _⟩ => rfl | ⟨1, _⟩ => rfl
theorem idx_v12 (k : Fin 3) : idx_main_v12 (ix1 r) k = ix2 r k := by
  funext a; match a with | ⟨0, _⟩ => rfl | ⟨1, _⟩ => rfl
theorem idx_v16 (k : Fin 4) : idx_main_v16 (ix1 r) k = ix2 r k := by
  funext a; match a with | ⟨0, _⟩ => rfl | ⟨1, _⟩ => rfl
theorem idx_v23 (k : Fin 3) : idx_main_v23 (ix1 r) k = ix2 r k := by
  funext a; match a with | ⟨0, _⟩ => rfl | ⟨1, _⟩ => rfl
theorem idx_v27 (k : Fin 4) : idx_main_v27 (ix1 r) k = ix2 r k := by
  funext a; match a with | ⟨0, _⟩ => rfl | ⟨1, _⟩ => rfl
theorem idx_v34 (k : Fin 3) : idx_main_v34 (ix1 r) k = ix2 r k := by
  funext a; match a with | ⟨0, _⟩ => rfl | ⟨1, _⟩ => rfl
theorem idx_v38 (k : Fin 4) : idx_main_v38 (ix1 r) k = ix2 r k := by
  funext a; match a with | ⟨0, _⟩ => rfl | ⟨1, _⟩ => rfl

end Idx

/-- The zero word is the number zero. -/
theorem zero_word : FloatOps.ofBits (F := Ideal) .f32 0x00000000#32 = (0 : EReal) := Ideal.ofBits_zero_f32

/-! ## One sample -/

section Sample
variable (x0 : (⟨S1048576x3, .f32⟩ : BufTy).Contents (Elt Ideal)) (x1 : (⟨S1048576x4, .f32⟩ : BufTy).Contents (Elt Ideal))
  (x2 : (⟨S1048576x3, .f32⟩ : BufTy).Contents (Elt Ideal)) (x3 : (⟨S1048576x4, .f32⟩ : BufTy).Contents (Elt Ideal))
  (x4 : (⟨S1048576x3, .f32⟩ : BufTy).Contents (Elt Ideal)) (x5 : (⟨S1048576x4, .f32⟩ : BufTy).Contents (Elt Ideal))
  (x6 : (⟨S1048576x7, .f32⟩ : BufTy).Contents (Elt Ideal)) (r : Fin 1048576)

/-- The true position's coordinate `k` at sample `r`. -/
theorem g_at (k : Fin 3) :
    val_main_v0 (F := Ideal) x6 (ix2 r k) = x6 (ix2 r ⟨k.val, by have := k.isLt; omega⟩) := by
  rw [val_main_v0_apply, idx_v0]
/-- The true orientation's coordinate `k` at sample `r`. -/
theorem q_at (k : Fin 4) :
    val_main_v1 (F := Ideal) x6 (ix2 r k) = x6 (ix2 r ⟨3 + k.val, by have := k.isLt; omega⟩) := by
  rw [val_main_v1_apply, idx_v1]

/-- The divisor of the true orientation at sample `r`: its norm floored at the small constant. -/
theorem den_at : val_main_v6 (F := Ideal) x6 (ix1 r)
    = PoseLoss.qden (x6 (ix2 r 3)) (x6 (ix2 r 4)) (x6 (ix2 r 5)) (x6 (ix2 r 6)) := by
  rw [val_main_v6_apply, val_main_v4_apply, val_main_v3_apply, val_main_v5_apply, val_main_cst_0_apply,
    val_main_cst_apply, Fin.sum_univ_four, idx_v3, idx_v3, idx_v3, idx_v3,
    val_main_v2_apply, val_main_v2_apply, val_main_v2_apply, val_main_v2_apply, q_at, q_at, q_at, q_at,
    zero_word, zero_add]
  rfl

/-- The normalized true orientation's coordinate `k` at sample `r`. -/
theorem qn_at (k : Fin 4) : val_main_v9 (F := Ideal) x6 (ix2 r k)
    = Ideal.div (x6 (ix2 r ⟨3 + k.val, by have := k.isLt; omega⟩))
        (PoseLoss.qden (x6 (ix2 r 3)) (x6 (ix2 r 4)) (x6 (ix2 r 5)) (x6 (ix2 r 6))) := by
  rw [val_main_v9_apply, q_at, val_main_v8_apply, idx_v8, val_main_v7_apply, idx_v7, den_at]
  rfl

theorem pos0_at : val_main_v13 (F := Ideal) x0 x6 (ix1 r)
    = PoseLoss.dist3 (x0 (ix2 r 0)) (x0 (ix2 r 1)) (x0 (ix2 r 2)) (x6 (ix2 r 0)) (x6 (ix2 r 1)) (x6 (ix2 r 2)) := by
  rw [val_main_v13_apply, val_main_v12_apply, val_main_cst_1_apply, Fin.sum_univ_three, idx_v12, idx_v12, idx_v12,
    val_main_v11_apply, val_main_v11_apply, val_main_v11_apply, val_main_v10_apply, val_main_v10_apply, val_main_v10_apply,
    g_at, g_at, g_at, zero_word, zero_add]
  rfl

theorem pos1_at : val_main_v24 (F := Ideal) x2 x6 (ix1 r)
    = PoseLoss.dist3 (x2 (ix2 r 0)) (x2 (ix2 r 1)) (x2 (ix2 r 2)) (x6 (ix2 r 0)) (x6 (ix2 r 1)) (x6 (ix2 r 2)) := by
  rw [val_main_v24_apply, val_main_v23_apply, val_main_cst_4_apply, Fin.sum_univ_three, idx_v23, idx_v23, idx_v23,
    val_main_v22_apply, val_main_v22_apply, val_main_v22_apply, val_main_v21_apply, val_main_v21_apply, val_main_v21_apply,
    g_at, g_at, g_at, zero_word, zero_add]
  rfl

theorem pos2_at : val_main_v35 (F := Ideal) x4 x6 (ix1 r)
    = PoseLoss.dist3 (x4 (ix2 r 0)) (x4 (ix2 r 1)) (x4 (ix2 r 2)) (x6 (ix2 r 0)) (x6 (ix2 r 1)) (x6 (ix2 r 2)) := by
  rw [val_main_v35_apply, val_main_v34_apply, val_main_cst_7_apply, Fin.sum_univ_three, idx_v34, idx_v34, idx_v34,
    val_main_v33_apply, val_main_v33_apply, val_main_v33_apply, val_main_v32_apply, val_main_v32_apply, val_main_v32_apply,
    g_at, g_at, g_at, zero_word, zero_add]
  rfl

theorem ori0_at : val_main_v17 (F := Ideal) x1 x6 (ix1 r)
    = PoseLoss.dist4 (x1 (ix2 r 0)) (x1 (ix2 r 1)) (x1 (ix2 r 2)) (x1 (ix2 r 3))
        (Ideal.div (x6 (ix2 r 3)) (PoseLoss.qden (x6 (ix2 r 3)) (x6 (ix2 r 4)) (x6 (ix2 r 5)) (x6 (ix2 r 6))))
        (Ideal.div (x6 (ix2 r 4)) (PoseLoss.qden (x6 (ix2 r 3)) (x6 (ix2 r 4)) (x6 (ix2 r 5)) (x6 (ix2 r 6))))
        (Ideal.div (x6 (ix2 r 5)) (PoseLoss.qden (x6 (ix2 r 3)) (x6 (ix2 r 4)) (x6 (ix2 r 5)) (x6 (ix2 r 6))))
        (Ideal.div (x6 (ix2 r 6)) (PoseLoss.qden (x6 (ix2 r 3)) (x6 (ix2 r 4)) (x6 (ix2 r 5)) (x6 (ix2 r 6)))) := by
  rw [val_main_v17_apply, val_main_v16_apply, val_main_cst_2_apply, Fin.sum_univ_four, idx_v16, idx_v16, idx_v16, idx_v16,
    val_main_v15_apply, val_main_v15_apply, val_main_v15_apply, val_main_v15_apply, val_main_v14_apply, val_main_v14_apply, val_main_v14_apply, val_main_v14_apply,
    qn_at, qn_at, qn_at, qn_at, zero_word, zero_add]
  rfl

theorem ori1_at : val_main_v28 (F := Ideal) x3 x6 (ix1 r)
    = PoseLoss.dist4 (x3 (ix2 r 0)) (x3 (ix2 r 1)) (x3 (ix2 r 2)) (x3 (ix2 r 3))
        (Ideal.div (x6 (ix2 r 3)) (PoseLoss.qden (x6 (ix2 r 3)) (x6 (ix2 r 4)) (x6 (ix2 r 5)) (x6 (ix2 r 6))))
        (Ideal.div (x6 (ix2 r 4)) (PoseLoss.qden (x6 (ix2 r 3)) (x6 (ix2 r 4)) (x6 (ix2 r 5)) (x6 (ix2 r 6))))
        (Ideal.div (x6 (ix2 r 5)) (PoseLoss.qden (x6 (ix2 r 3)) (x6 (ix2 r 4)) (x6 (ix2 r 5)) (x6 (ix2 r 6))))
        (Ideal.div (x6 (ix2 r 6)) (PoseLoss.qden (x6 (ix2 r 3)) (x6 (ix2 r 4)) (x6 (ix2 r 5)) (x6 (ix2 r 6)))) := by
  rw [val_main_v28_apply, val_main_v27_apply, val_main_cst_5_apply, Fin.sum_univ_four, idx_v27, idx_v27, idx_v27, idx_v27,
    val_main_v26_apply, val_main_v26_apply, val_main_v26_apply, val_main_v26_apply, val_main_v25_apply, val_main_v25_apply, val_main_v25_apply, val_main_v25_apply,
    qn_at, qn_at, qn_at, qn_at, zero_word, zero_add]
  rfl

theorem ori2_at : val_main_v39 (F := Ideal) x5 x6 (ix1 r)
    = PoseLoss.dist4 (x5 (ix2 r 0)) (x5 (ix2 r 1)) (x5 (ix2 r 2)) (x5 (ix2 r 3))
        (Ideal.div (x6 (ix2 r 3)) (PoseLoss.qden (x6 (ix2 r 3)) (x6 (ix2 r 4)) (x6 (ix2 r 5)) (x6 (ix2 r 6))))
        (Ideal.div (x6 (ix2 r 4)) (PoseLoss.qden (x6 (ix2 r 3)) (x6 (ix2 r 4)) (x6 (ix2 r 5)) (x6 (ix2 r 6))))
        (Ideal.div (x6 (ix2 r 5)) (PoseLoss.qden (x6 (ix2 r 3)) (x6 (ix2 r 4)) (x6 (ix2 r 5)) (x6 (ix2 r 6))))
        (Ideal.div (x6 (ix2 r 6)) (PoseLoss.qden (x6 (ix2 r 3)) (x6 (ix2 r 4)) (x6 (ix2 r 5)) (x6 (ix2 r 6)))) := by
  rw [val_main_v39_apply, val_main_v38_apply, val_main_cst_8_apply, Fin.sum_univ_four, idx_v38, idx_v38, idx_v38, idx_v38,
    val_main_v37_apply, val_main_v37_apply, val_main_v37_apply, val_main_v37_apply, val_main_v36_apply, val_main_v36_apply, val_main_v36_apply, val_main_v36_apply,
    qn_at, qn_at, qn_at, qn_at, zero_word, zero_add]
  rfl

theorem br0_at : val_main_v20 (F := Ideal) x0 x1 x6 (ix1 r)
    = PoseLoss.branch PoseLoss.w150 (x0 (ix2 r 0)) (x0 (ix2 r 1)) (x0 (ix2 r 2))
        (x1 (ix2 r 0)) (x1 (ix2 r 1)) (x1 (ix2 r 2)) (x1 (ix2 r 3))
        (x6 (ix2 r 0)) (x6 (ix2 r 1)) (x6 (ix2 r 2)) (x6 (ix2 r 3)) (x6 (ix2 r 4)) (x6 (ix2 r 5)) (x6 (ix2 r 6))
        (PoseLoss.qden (x6 (ix2 r 3)) (x6 (ix2 r 4)) (x6 (ix2 r 5)) (x6 (ix2 r 6))) := by
  rw [val_main_v20_apply, val_main_v19_apply, val_main_v18_apply, val_main_cst_3_apply, pos0_at, ori0_at]
  rfl

theorem br1_at : val_main_v31 (F := Ideal) x2 x3 x6 (ix1 r)
    = PoseLoss.branch PoseLoss.w150 (x2 (ix2 r 0)) (x2 (ix2 r 1)) (x2 (ix2 r 2))
        (x3 (ix2 r 0)) (x3 (ix2 r 1)) (x3 (ix2 r 2)) (x3 (ix2 r 3))
        (x6 (ix2 r 0)) (x6 (ix2 r 1)) (x6 (ix2 r 2)) (x6 (ix2 r 3)) (x6 (ix2 r 4)) (x6 (ix2 r 5)) (x6 (ix2 r 6))
        (PoseLoss.qden (x6 (ix2 r 3)) (x6 (ix2 r 4)) (x6 (ix2 r 5)) (x6 (ix2 r 6))) := by
  rw [val_main_v31_apply, val_main_v30_apply, val_main_v29_apply, val_main_cst_6_apply, pos1_at, ori1_at]
  rfl

theorem br2_at : val_main_v42 (F := Ideal) x4 x5 x6 (ix1 r)
    = PoseLoss.branch PoseLoss.w500 (x4 (ix2 r 0)) (x4 (ix2 r 1)) (x4 (ix2 r 2))
        (x5 (ix2 r 0)) (x5 (ix2 r 1)) (x5 (ix2 r 2)) (x5 (ix2 r 3))
        (x6 (ix2 r 0)) (x6 (ix2 r 1)) (x6 (ix2 r 2)) (x6 (ix2 r 3)) (x6 (ix2 r 4)) (x6 (ix2 r 5)) (x6 (ix2 r 6))
        (PoseLoss.qden (x6 (ix2 r 3)) (x6 (ix2 r 4)) (x6 (ix2 r 5)) (x6 (ix2 r 6))) := by
  rw [val_main_v42_apply, val_main_v41_apply, val_main_v40_apply, val_main_cst_9_apply, pos2_at, ori2_at]
  rfl

/-- Sample `r`'s value in the reference is the specification's loss of its gathered row. -/
theorem sample_at : val_main_v50 (F := Ideal) x0 x1 x2 x3 x4 x5 x6 (ix1 r)
    = PoseLoss.sample (PoseLoss.row x0 x1 x2 x3 x4 x5 x6 r) := by
  rw [val_main_v50_apply, val_main_v47_apply, val_main_v44_apply, val_main_v46_apply, val_main_v49_apply,
    val_main_v43_apply, val_main_cst_10_apply, val_main_v45_apply, val_main_cst_11_apply,
    val_main_v48_apply, val_main_cst_12_apply, br0_at, br1_at, br2_at]
  rfl

end Sample

/-! ## The mean over the samples -/

/-- The reference's result, at its one index, is the specification's mean pose loss. -/
theorem ref_total (x0 : (⟨S1048576x3, .f32⟩ : BufTy).Contents (Elt Ideal)) (x1 : (⟨S1048576x4, .f32⟩ : BufTy).Contents (Elt Ideal))
    (x2 : (⟨S1048576x3, .f32⟩ : BufTy).Contents (Elt Ideal)) (x3 : (⟨S1048576x4, .f32⟩ : BufTy).Contents (Elt Ideal))
    (x4 : (⟨S1048576x3, .f32⟩ : BufTy).Contents (Elt Ideal)) (x5 : (⟨S1048576x4, .f32⟩ : BufTy).Contents (Elt Ideal))
    (x6 : (⟨S1048576x7, .f32⟩ : BufTy).Contents (Elt Ideal)) :
    val_main_v52 (F := Ideal) x0 x1 x2 x3 x4 x5 x6 = fun _ => PoseLoss.total x0 x1 x2 x3 x4 x5 x6 := by
  funext i
  rw [val_main_v52_apply, val_main_v51_apply, val_main_cst_13_apply, val_main_cst_14_apply, zero_word, zero_add,
    sum_idx1, Ideal.hostDivf_def]
  exact congrArg (fun s => Ideal.div s PoseLoss.nB)
    (Finset.sum_congr rfl fun r _ => sample_at x0 x1 x2 x3 x4 x5 x6 r)

end PoseLoss.Ref

end
-- ==== Proof.lean ====
/-
  The pose loss kernel against its array reference, over the extended reals.

  Both programs take seven float arrays of 1048576 samples (three predicted positions and three predicted orientations,
  and the true pose) and return one number: the mean over the samples of a weighted sum of Euclidean distances between
  the predictions and the true pose, the true orientation first divided by its norm (floored at a small constant).

  The kernel gathers each sample's 28 numbers into a column of a 28 x 1048576 array, walks it in 2 x 32 blocks of
  16384 columns, adds each block's sum of sample losses to a running sum that it resets at the first block of each
  half and writes out at the last, and finally adds the two halves' sums and divides by the number of samples.  The
  reference computes every sample's loss with whole-array operations, sums them and divides.  The sample loss is the
  same expression on both sides (a sum of 3, 4 or 7 squares written out term by term on one side and as a reduction on
  the other), and the sum of all samples' losses is re-grouped by half, block and column: addition of extended reals is
  commutative and associative, so no finiteness is needed.

  The three frames: each program terminates without a fault and leaves its arguments as launched — for the kernel, at
  the bit-level instance and at the extended reals, by running the body symbolically in each of its three cases (first,
  middle, last block of a half) and launching the pipelined region over the proof data that records the running sum
  after each block; for the reference, from its run.  The idealization changed no operation.
-/
import proofs.«112681_j90555090468868_2_alg».proof.Defs
import proofs.«112681_j90555090468868_2_alg».proof.Proof.Gen.Kernel
import proofs.«112681_j90555090468868_2_alg».proof.Proof.Gen.KernelIdeal
import proofs.«112681_j90555090468868_2_alg».proof.Proof.Gen.ReferenceIdeal
import proofs.«112681_j90555090468868_2_alg».proof.Proof.Gen.ReferenceIdeal.Run
import proofs.«112681_j90555090468868_2_alg».proof.Proof.Gen.ReferenceIdeal.Read
import proofs.«112681_j90555090468868_2_alg».proof.Proof.Gen.Pre_finite_inputs
import proofs.«112681_j90555090468868_2_alg».proof.Proof.Kernel.Frame
import proofs.«112681_j90555090468868_2_alg».proof.Proof.KernelIdeal.Result
import proofs.«112681_j90555090468868_2_alg».proof.Proof.RefTotal

noncomputable section

namespace Cert.Proof

open Idealize.ShloMosaic Idealize.SL.Sem

/-- The kernel, at the bit-level instance, terminates and leaves its arguments as launched. -/
theorem frame_k : Cert.frame_Kernel := fun m ρ _ => Cert.Kernel.Frame.frame m ρ

/-- So does its idealization, at the extended reals. -/
theorem frame_ki : Cert.frame_KernelIdeal := fun m ρ _ => Cert.KernelIdeal.Frame.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the mean sample loss of the arguments in their result. -/
theorem algebraic : Cert.algebraic_KernelIdeal_ReferenceIdeal := by
  intro m ρ m' ρ' _ hagree
  refine ⟨fun c => fun _ => PoseLoss.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, PoseLoss.Ref.ref_total, (hagree c).1, (hagree c).2.1, (hagree c).2.2.1,
    (hagree c).2.2.2.1, (hagree c).2.2.2.2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
